-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S1024x3 : Shape := ⟨2, ![1024, 3]⟩
abbrev S1024x2 : Shape := ⟨2, ![1024, 2]⟩
abbrev S1024x1 : Shape := ⟨2, ![1024, 1]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024x2 : S_.BroadcastsInDim S1024x2 (![] : Fin 0 → Fin S1024x2.rank)
  reducesTo_S1024x2_S_d0_1 : S1024x2.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg4 : FVec F S1024x2 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1024x2 .f32 := Host.absf main_arg4
  let main_cst_6 : FVec F S_ .f32 := constant S_ .f32 0x7F800000#32
  let main_v20 : FVec F S1024x2 .f32 := broadcastInDim S1024x2 ![] bcast_S_S1024x2 main_cst_6
  let main_v21 : IVec S1024x2 1 := cmpf .olt main_v19 main_v20
  let main_c_7 : IVec S_ 1 := constantI S_ 1 1#1
  let main_v22 : IVec S_ 1 := (fun x v => Host.reduce IntOp.andi x v reducesTo_S1024x2_S_d0_1 h_S_) main_v21 main_c_7
  let main_v23 : IVec S_ 1 := andi main_v18 main_v22
  main_v23

def fn {F : FTy → Type} [FloatOps F] (main_arg0 : FVec F S65536x2 .f32) (main_arg1 : FVec F S1024x3 .f32) (main_arg2 : FVec F S1024x2 .f32) (main_arg3 : FVec F S1024x1 .f32) (main_arg4 : FVec F S1024x2 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024x2 .f32 := Host.absf main_arg2
  let main_cst_2 : FVec F S_ .f32 := constant S_ .f32 0x7F800000#32
  let main_v10 : FVec F S1024x2 .f32 := broadcastInDim S1024x2 ![] bcast_S_S1024x2 main_cst_2
  let main_v11 : IVec S1024x2 1 := cmpf .olt main_v9 main_v10
  let main_c_3 : IVec S_ 1 := constantI S_ 1 1#1
  let main_v12 : IVec S_ 1 := (fun x v => Host.reduce IntOp.andi x v reducesTo_S1024x2_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S65536x2 : Shape := ⟨2, ![65536, 2]⟩
abbrev S1024x3 : Shape := ⟨2, ![1024, 3]⟩
abbrev S1024x2 : Shape := ⟨2, ![1024, 2]⟩
abbrev S1024x1 : Shape := ⟨2, ![1024, 1]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S65536x3 : Shape := ⟨2, ![65536, 3]⟩
abbrev S1024x6 : Shape := ⟨2, ![1024, 6]⟩
abbrev S6x1024 : Shape := ⟨2, ![6, 1024]⟩
abbrev S1024x1024 : Shape := ⟨2, ![1024, 1024]⟩

abbrev nBuf : Space → Nat
  | .hbm => 71
  | .vmem => 6
  | .smem => 0
  | _ => 0

abbrev bufTy : (tb : Table) → Fin (tcTables nBuf tb) → BufTy
  | .hbm, ⟨0, _⟩ => ⟨S65536x2, .f32⟩
  | .hbm, ⟨1, _⟩ => ⟨S1024x3, .f32⟩
  | .hbm, ⟨2, _⟩ => ⟨S1024x2, .f32⟩
  | .hbm, ⟨3, _⟩ => ⟨S1024x1, .f32⟩
  | .hbm, ⟨4, _⟩ => ⟨S1024x2, .f32⟩
  | .hbm, ⟨5, _⟩ => ⟨S1024, .f32⟩
  | .hbm, ⟨6, _⟩ => ⟨S1024x1, .f32⟩
  | .hbm, ⟨7, _⟩ => ⟨S1024, .f32⟩
  | .hbm, ⟨8, _⟩ => ⟨S1024, .f32⟩
  | .hbm, ⟨9, _⟩ => ⟨S1024x1, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024, .f32⟩
  | .hbm, ⟨30, _⟩ => ⟨S1024x1, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S8x1024, .f32⟩
  | .hbm, ⟨70, _⟩ => ⟨S65536x3, .f32⟩
  | .local _ .vmem, ⟨0, _⟩ => ⟨S1024x2, .f32⟩
  | .local _ .vmem, ⟨1, _⟩ => ⟨S1024x2, .f32⟩
  | .local _ .vmem, ⟨2, _⟩ => ⟨S8x1024, .f32⟩
  | .local _ .vmem, ⟨3, _⟩ => ⟨S1024x3, .f32⟩
  | .local _ .vmem, ⟨4, _⟩ => ⟨S1024x3, .f32⟩
  | .local _ .vmem, ⟨5, _⟩ => ⟨S1024x3, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x1_S1024 : S1024x1.ShapeCasts S1024
  slices_S1024x2_S1024x1_0_0 : S1024x2.Slices ![0, 0] S1024x1
  slices_S1024x2_S1024x1_0_1 : S1024x2.Slices ![0, 1] S1024x1
  bcast_S_S1024 : S_.BroadcastsInDim S1024 (![] : Fin 0 → Fin S1024.rank)
  bcast_S1024_S1x1024_1 : S1024.BroadcastsInDim S1x1024 (![1] : Fin 1 → Fin S1x1024.rank)
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  concatenates_S1024x1_S1024x1_S1024x1_S1024x1_S1024x1_S1024x1_S1024x6_d1 : Shape.Concatenates [S1024x1, S1024x1, S1024x1, S1024x1, S1024x1, S1024x1] S1024x6 1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S8x1024_o0_0_S6x1024 : S8x1024.Slices ![0, 0] S6x1024
  inb_S1024x3_S1024x3_0_0 : ∀ a, (![0, 0] : Fin 2 → Nat) a + S1024x3.size a ≤ S1024x3.size a
  h_S1024x3 : 0 < S1024x3.numel
  bitsLt_bf16_f32 : FTy.bits .bf16 < FTy.bits .f32
  dot_S1024x6_S6x1024_S1024x1024_1_0_0_1_n_n_wf : DotDims.WF S1024x6 S6x1024 S1024x1024 [1] [0] [0] [1] [] []
  dot_S1024x1024_S1024x3_S1024x3_1_0_0_1_n_n_wf : DotDims.WF S1024x1024 S1024x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S65536x2.size a
  hwx0_0 : ∀ i : grid0.Coords, EltTy.bits .f32 = 32 ∨ (Rect.block (s := S65536x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S1024x3.size a
  hwx0_2 : ∀ i : grid0.Coords, EltTy.bits .f32 = 32 ∨ (Rect.block (s := S1024x3) S1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S65536x3.size a
  hwx0_3 : ∀ i : grid0.Coords, EltTy.bits .f32 = 32 ∨ (Rect.block (s := S65536x3) S1024x3.size (cc0_transform_3 i) (hinb0_3 i)).WholeWords (EltTy.packing .f32)

variable [Facts₀]

def dot_S1024x6_S6x1024_S1024x1024_1_0_0_1_n_n : DotDims S1024x6 S6x1024 S1024x1024 where
  lhsContracting := [1]
  rhsContracting := [0]
  lhsNonContracting := [0]
  rhsNonContracting := [1]
  lhsBatch := []
  rhsBatch := []
  wf := dot_S1024x6_S6x1024_S1024x1024_1_0_0_1_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1024x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2 : Shape := ⟨2, ![65536, 2]⟩
abbrev S1024x3 : Shape := ⟨2, ![1024, 3]⟩
abbrev S1024x2 : Shape := ⟨2, ![1024, 2]⟩
abbrev S1024x1 : Shape := ⟨2, ![1024, 1]⟩
abbrev S1024 : Shape := ⟨1, ![1024]⟩
abbrev S65536x1 : Shape := ⟨2, ![65536, 1]⟩
abbrev S1x1024 : Shape := ⟨2, ![1, 1024]⟩
abbrev S65536x1024 : Shape := ⟨2, ![65536, 1024]⟩
abbrev S_ : Shape := ⟨0, ![]⟩
abbrev S65536x3 : Shape := ⟨2, ![65536, 3]⟩

abbrev nBuf : Space → Nat
  | .hbm => 64
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S1024x3, .f32⟩
  | .hbm, ⟨2, _⟩ => ⟨S1024x2, .f32⟩
  | .hbm, ⟨3, _⟩ => ⟨S1024x1, .f32⟩
  | .hbm, ⟨4, _⟩ => ⟨S1024x2, .f32⟩
  | .hbm, ⟨5, _⟩ => ⟨S1024, .f32⟩
  | .hbm, ⟨6, _⟩ => ⟨S1024x1, .f32⟩
  | .hbm, ⟨7, _⟩ => ⟨S1024, .f32⟩
  | .hbm, ⟨8, _⟩ => ⟨S1024, .f32⟩
  | .hbm, ⟨9, _⟩ => ⟨S1024x1, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S65536x1, .f32⟩
  | .hbm, ⟨29, _⟩ => ⟨S1024x1, .f32⟩
  | .hbm, ⟨30, _⟩ => ⟨S1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1, .f32⟩
  | .hbm, ⟨36, _⟩ => ⟨S1024x1, .f32⟩
  | .hbm, ⟨37, _⟩ => ⟨S1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x3, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_0 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]

class Facts₀ : Prop where
  shapeCasts_S1024x1_S1024 : S1024x1.ShapeCasts S1024
  slices_S1024x2_S1024x1_0_0 : S1024x2.Slices ![0, 0] S1024x1
  slices_S1024x2_S1024x1_0_1 : S1024x2.Slices ![0, 1] S1024x1
  slices_S65536x2_S65536x1_0_0 : S65536x2.Slices ![0, 0] S65536x1
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  slices_S65536x2_S65536x1_0_1 : S65536x2.Slices ![0, 1] S65536x1
  bcast_S_S1024 : S_.BroadcastsInDim S1024 (![] : Fin 0 → Fin S1024.rank)
  bcast_S_S65536x1024 : S_.BroadcastsInDim S65536x1024 (![] : Fin 0 → Fin S65536x1024.rank)
  dot_S65536x1024_S1024x3_S65536x3_1_0_0_1_n_n_wf : DotDims.WF S65536x1024 S1024x3 S65536x3 [1] [0] [0] [1] [] []

variable [Facts₀]

def dot_S65536x1024_S1024x3_S65536x3_1_0_0_1_n_n : DotDims S65536x1024 S1024x3 S65536x3 where
  lhsContracting := [1]
  rhsContracting := [0]
  lhsNonContracting := [0]
  rhsNonContracting := [1]
  lhsBatch := []
  rhsBatch := []
  wf := dot_S65536x1024_S1024x3_S65536x3_1_0_0_1_n_n_wf

class Facts : Prop extends Facts₀ where

variable [Facts]
-- ==== Proof.FrameK.lean ====
/-
  The frame of `Cert.Kernel`'s program at any float instance: every weakly fair execution of @main terminates, faults
  nowhere and leaves the five argument arrays as launched.

  @main is a stretch of host operations (the per-primitive covariance entries and the six coefficient rows, stacked
  into one 8×1024 array) followed by one pipelined region over 64 grid points.  The region stages a 1024×2 block of
  the points (a new one at every grid point), the whole coefficient array and the whole colour array (fetched once),
  and writes back a 1024×3 block of the result at every point.  The body loads the three input blocks whole and
  stores one value, a pure function of them, over the whole output block; so after the body the output buffer holds
  that function of the three input blocks, and each input buffer still holds its block.  No host operation writes an
  argument array, and the region writes only the result array.
-/
import proofs.«155513_j89326729822767_2_alg».proof.Proof.Gen.Kernel.Launch
import proofs.«155513_j89326729822767_2_alg».proof.Proof.Gen.Kernel.Skeleton
import proofs.«155513_j89326729822767_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or kept from
    an earlier point (its block index has then not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or kept from
    an earlier point (its block index has then not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or kept from
    an earlier point (its block index has then not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run ending with every staged array at what the proof data computes and every other unscoped buffer as the
    region found it, the five argument arrays end as launched: arguments 0 and 1 are staged inputs (windows 0 and 2),
    arguments 2, 3, 4 are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: each a whole buffer -/

abbrev rX : Rect S1024x2 := Rect.unit (s := S1024x2) ![0, 0] S1024x2.size inb_S1024x2_S1024x2_0_0
abbrev rCoef : Rect S8x1024 := Rect.unit (s := S8x1024) ![0, 0] S8x1024.size inb_S8x1024_S8x1024_0_0
abbrev rCol : Rect S1024x3 := Rect.unit (s := S1024x3) ![0, 0] S1024x3.size inb_S1024x3_S1024x3_0_0

/-! ## What the body leaves in the output window's buffer -/

/-- The output buffer after the body, from the three input blocks: its one store, of the body's value of the three loads. -/
def out0_3 (x0 : Vec F S1024x2 .f32) (x1 : Vec F S8x1024 .f32) (x2 : Vec F S1024x3 .f32) : Vec F S1024x3 .f32 :=
  View.canon [⟨rCol, k0_pay1 (View.ld x0 rX) (View.ld x1 rCoef) (View.ld x2 rCol)⟩]

/-- The one store covers the buffer. -/
theorem cover0_3 (p0 : Vec F S1024x3 .f32) (y : S1024x3.Idx) :
    ∃ pc ∈ ([⟨rCol, p0⟩] : List (View.Piece (Elt F) S1024x3 .f32)), y ∈ pc.1.set :=
  View.cover_of_tiled [⟨rCol, p0⟩] S1024x3.size (by rfl) y

/-! ## The body's triple -/

set_option maxHeartbeats 1000000 in
/-- The body on whole staging memrefs, the inputs' at contents `x0 x1 x2` and the output's at anything, runs to the
    continuation with the inputs' as they were and the output's at `out0_3 x0 x1 x2`. -/
theorem sound_kernel (c : Dev nD) (E : Set ℕ) (i : grid0.Coords) (arg1 : Memref sig .tc .vmem S1024x2 .f32) (harg1 : arg1.IsWhole)
    (arg2 : Memref sig .tc .vmem S8x1024 .f32) (harg2 : arg2.IsWhole) (arg3 : Memref sig .tc .vmem S1024x3 .f32) (harg3 : arg3.IsWhole)
    (arg4 : Memref sig .tc .vmem S1024x3 .f32) (harg4 : arg4.IsWhole)
    (x0 : Vec F S1024x2 .f32) (x1 : Vec F S8x1024 .f32) (x2 : Vec F S1024x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__splat_kernel i arg1 harg1 arg2 harg2 arg3 harg3 arg4 harg4) K := by
  simp only [cc0__splat_kernel_eq_skeleton]; unfold cc0__splat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's buffer at
    its block and the output's at `out0_3` of the three input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    staged array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frm

end
-- ==== Proof.FrameKI.lean ====
/-
  The frame of `Cert.KernelIdeal`'s program at any float instance: every weakly fair execution of @main terminates, faults
  nowhere and leaves the five argument arrays as launched.

  @main is a stretch of host operations (the per-primitive covariance entries and the six coefficient rows, stacked
  into one 8×1024 array) followed by one pipelined region over 64 grid points.  The region stages a 1024×2 block of
  the points (a new one at every grid point), the whole coefficient array and the whole colour array (fetched once),
  and writes back a 1024×3 block of the result at every point.  The body loads the three input blocks whole and
  stores one value, a pure function of them, over the whole output block; so after the body the output buffer holds
  that function of the three input blocks, and each input buffer still holds its block.  No host operation writes an
  argument array, and the region writes only the result array.
-/
import proofs.«155513_j89326729822767_2_alg».proof.Proof.Gen.KernelIdeal.Launch
import proofs.«155513_j89326729822767_2_alg».proof.Proof.Gen.KernelIdeal.Skeleton
import proofs.«155513_j89326729822767_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or kept from
    an earlier point (its block index has then not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or kept from
    an earlier point (its block index has then not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or kept from
    an earlier point (its block index has then not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run ending with every staged array at what the proof data computes and every other unscoped buffer as the
    region found it, the five argument arrays end as launched: arguments 0 and 1 are staged inputs (windows 0 and 2),
    arguments 2, 3, 4 are staged by no window, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: each a whole buffer -/

abbrev rX : Rect S1024x2 := Rect.unit (s := S1024x2) ![0, 0] S1024x2.size inb_S1024x2_S1024x2_0_0
abbrev rCoef : Rect S8x1024 := Rect.unit (s := S8x1024) ![0, 0] S8x1024.size inb_S8x1024_S8x1024_0_0
abbrev rCol : Rect S1024x3 := Rect.unit (s := S1024x3) ![0, 0] S1024x3.size inb_S1024x3_S1024x3_0_0

/-! ## What the body leaves in the output window's buffer -/

/-- The output buffer after the body, from the three input blocks: its one store, of the body's value of the three loads. -/
def out0_3 (x0 : Vec F S1024x2 .f32) (x1 : Vec F S8x1024 .f32) (x2 : Vec F S1024x3 .f32) : Vec F S1024x3 .f32 :=
  View.canon [⟨rCol, k0_pay1 (View.ld x0 rX) (View.ld x1 rCoef) (View.ld x2 rCol)⟩]

/-- The one store covers the buffer. -/
theorem cover0_3 (p0 : Vec F S1024x3 .f32) (y : S1024x3.Idx) :
    ∃ pc ∈ ([⟨rCol, p0⟩] : List (View.Piece (Elt F) S1024x3 .f32)), y ∈ pc.1.set :=
  View.cover_of_tiled [⟨rCol, p0⟩] S1024x3.size (by rfl) y

/-! ## The body's triple -/

set_option maxHeartbeats 1000000 in
/-- The body on whole staging memrefs, the inputs' at contents `x0 x1 x2` and the output's at anything, runs to the
    continuation with the inputs' as they were and the output's at `out0_3 x0 x1 x2`. -/
theorem sound_kernel (c : Dev nD) (E : Set ℕ) (i : grid0.Coords) (arg1 : Memref sig .tc .vmem S1024x2 .f32) (harg1 : arg1.IsWhole)
    (arg2 : Memref sig .tc .vmem S8x1024 .f32) (harg2 : arg2.IsWhole) (arg3 : Memref sig .tc .vmem S1024x3 .f32) (harg3 : arg3.IsWhole)
    (arg4 : Memref sig .tc .vmem S1024x3 .f32) (harg4 : arg4.IsWhole)
    (x0 : Vec F S1024x2 .f32) (x1 : Vec F S8x1024 .f32) (x2 : Vec F S1024x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__splat_kernel i arg1 harg1 arg2 harg2 arg3 harg3 arg4 harg4) K := by
  simp only [cc0__splat_kernel_eq_skeleton]; unfold cc0__splat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data on core `c`: the arrays as the region finds them; after the body at point `t` each input's buffer at
    its block and the output's at `out0_3` of the three input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    staged array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frm

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.Spec.lean ====
/-
  The mathematics of the splat, on the extended reals.

  For primitive `k` let `R S` be the 2×2 matrix with rows `(sx·cos θ, −sy·sin θ)` and `(sx·sin θ, sy·cos θ)`,
  `sx = exp s₀`, `sy = exp s₁`, and `Σ = (R S)(R S)ᵀ` with entries `A = Σ₀₀`, `B = Σ₀₁`, `C = Σ₁₁`.  For a point
  `x` and the primitive's mean `μ` the weight is `exp (−½ · (x − μ)ᵀ Σ (x − μ))`, and the result at `(n, ch)` is the sum
  over the primitives of weight × colour.

  The quadratic form is computed two ways: directly from the differences `dx = x₀ − μ₀`, `dy = x₁ − μ₁`, or as the
  dot product of the six monomials `(x₀², x₀x₁, x₁², x₀, x₁, 1)` with six coefficients that depend on the primitive
  only.  On real numbers the two are one polynomial; on the extended reals that needs every quantity finite, because
  expanding `(x₀ − μ₀)²` distributes a product over a difference.
-/
import Idealize.ShloMosaic.PureOps.Ideal.Laws
import Idealize.ShloMosaic.Lib.ValueIdx

noncomputable section

namespace Cert.Splat

open Idealize.ShloMosaic Idealize.ShloMosaic.ValueIdx

/-! ## The three float literals -/

/-- `−0.5`. -/
abbrev mhalf : EReal := Ideal.ofBits .f32 0xBF000000#32
/-- `2.0`. -/
abbrev two : EReal := Ideal.ofBits .f32 0x40000000#32
/-- `1.0`. -/
abbrev one : EReal := Ideal.ofBits .f32 0x3F800000#32

theorem mhalf_eq : mhalf = ((-(1 / 2) : ℝ) : EReal) := by
  simp [mhalf, Ideal.ofBits, Ideal.ieee, -EReal.coe_mul]; norm_num
theorem two_eq : two = ((2 : ℝ) : EReal) := by
  simp [two, Ideal.ofBits, Ideal.ieee, -EReal.coe_mul]; norm_num
theorem one_eq : one = ((1 : ℝ) : EReal) := by
  simp [one, Ideal.ofBits, Ideal.ieee, -EReal.coe_mul]; norm_num

/-! ## The covariance entries of a primitive -/

section Cov
variable (rot : (⟨2, ![1024, 1]⟩ : Shape).Idx → EReal) (sc : (⟨2, ![1024, 2]⟩ : Shape).Idx → EReal) (k : Fin 1024)

/-- `sx·cos θ`. -/
def ra : EReal := Ideal.exp (sc (ix2 k 0)) * Ideal.cos (rot (ix2 k 0))
/-- `−sy·sin θ`. -/
def rb : EReal := -(Ideal.exp (sc (ix2 k 1))) * Ideal.sin (rot (ix2 k 0))
/-- `sx·sin θ`. -/
def rd : EReal := Ideal.exp (sc (ix2 k 0)) * Ideal.sin (rot (ix2 k 0))
/-- `sy·cos θ`. -/
def re : EReal := Ideal.exp (sc (ix2 k 1)) * Ideal.cos (rot (ix2 k 0))

def cov00 : EReal := ra rot sc k * ra rot sc k + rb rot sc k * rb rot sc k
def cov01 : EReal := ra rot sc k * rd rot sc k + rb rot sc k * re rot sc k
def cov11 : EReal := rd rot sc k * rd rot sc k + re rot sc k * re rot sc k

end Cov

/-! ## The exponent, two ways -/

/-- `−½ · (A·dx·dx + (2B)·dx·dy + C·dy·dy)`, grouped as the direct computation groups it. -/
def qDirect (A B C m0 m1 x0 x1 : EReal) : EReal :=
  mhalf * ((A * (x0 - m0) * (x0 - m0) + two * B * (x0 - m0) * (x1 - m1)) + C * (x1 - m1) * (x1 - m1))

/-- The six monomials of a point. -/
def monomials (x0 x1 : EReal) : Fin 6 → EReal := ![x0 * x0, x0 * x1, x1 * x1, x0, x1, one]

/-- The six coefficients of a primitive. -/
def coefs (A B C m0 m1 : EReal) : Fin 6 → EReal :=
  ![mhalf * A, -B, mhalf * C, A * m0 + B * m1, B * m0 + C * m1,
    mhalf * ((A * m0 * m0 + two * B * m0 * m1) + C * m1 * m1)]

/-- On real numbers the dot product of monomials and coefficients is the direct exponent. -/
theorem dot_eq_direct (a b c m0 m1 x0 x1 : ℝ) :
    ∑ j : Fin 6, monomials (x0 : EReal) x1 j * coefs (a : EReal) b c m0 m1 j = qDirect a b c m0 m1 x0 x1 := by
  rw [Fin.sum_univ_six]
  simp only [monomials, coefs, qDirect, mhalf_eq, two_eq, one_eq, Matrix.cons_val_zero, Matrix.cons_val_one,
    Matrix.cons_val]
  norm_cast
  ring

/-! ## Real entries stay real -/

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.neg {x : EReal} : IsReal x → IsReal (-x) := by
  rintro ⟨a, rfl⟩; exact ⟨-a, (EReal.coe_neg a).symm⟩
theorem IsReal.exp {x : EReal} : IsReal x → IsReal (Ideal.exp x) := by
  rintro ⟨a, rfl⟩; exact ⟨Real.exp a, rfl⟩
theorem IsReal.cos {x : EReal} : IsReal x → IsReal (Ideal.cos x) := by
  rintro ⟨a, rfl⟩; exact ⟨Real.cos a, rfl⟩
theorem IsReal.sin {x : EReal} : IsReal x → IsReal (Ideal.sin x) := by
  rintro ⟨a, rfl⟩; exact ⟨Real.sin a, rfl⟩

section CovReal
variable {rot : (⟨2, ![1024, 1]⟩ : Shape).Idx → EReal} {sc : (⟨2, ![1024, 2]⟩ : Shape).Idx → EReal}
  (hrot : ∀ i, IsReal (rot i)) (hsc : ∀ i, IsReal (sc i)) (k : Fin 1024)
include hrot hsc

theorem ra_real : IsReal (ra rot sc k) := (hsc _).exp.mul (hrot _).cos
theorem rb_real : IsReal (rb rot sc k) := (hsc _).exp.neg.mul (hrot _).sin
theorem rd_real : IsReal (rd rot sc k) := (hsc _).exp.mul (hrot _).sin
theorem re_real : IsReal (re rot sc k) := (hsc _).exp.mul (hrot _).cos
theorem cov00_real : IsReal (cov00 rot sc k) :=
  ((ra_real hrot hsc k).mul (ra_real hrot hsc k)).add ((rb_real hrot hsc k).mul (rb_real hrot hsc k))
theorem cov01_real : IsReal (cov01 rot sc k) :=
  ((ra_real hrot hsc k).mul (rd_real hrot hsc k)).add ((rb_real hrot hsc k).mul (re_real hrot hsc k))
theorem cov11_real : IsReal (cov11 rot sc k) :=
  ((rd_real hrot hsc k).mul (rd_real hrot hsc k)).add ((re_real hrot hsc k).mul (re_real hrot hsc k))

end CovReal

/-! ## The result, two ways -/

section Result
variable (x : (⟨2, ![65536, 2]⟩ : Shape).Idx → EReal) (col : (⟨2, ![1024, 3]⟩ : Shape).Idx → EReal)
  (mu : (⟨2, ![1024, 2]⟩ : Shape).Idx → EReal) (rot : (⟨2, ![1024, 1]⟩ : Shape).Idx → EReal)
  (sc : (⟨2, ![1024, 2]⟩ : Shape).Idx → EReal)

/-- The exponent of point `n` against primitive `k` as the dot product of monomials and coefficients. -/
def expoDot (n : Fin 65536) (k : Fin 1024) : EReal :=
  ∑ j : Fin 6, monomials (x (ix2 n 0)) (x (ix2 n 1)) j
    * coefs (cov00 rot sc k) (cov01 rot sc k) (cov11 rot sc k) (mu (ix2 k 0)) (mu (ix2 k 1)) j

/-- The exponent of point `n` against primitive `k` from the differences. -/
def expoDirect (n : Fin 65536) (k : Fin 1024) : EReal :=
  qDirect (cov00 rot sc k) (cov01 rot sc k) (cov11 rot sc k) (mu (ix2 k 0)) (mu (ix2 k 1)) (x (ix2 n 0)) (x (ix2 n 1))

/-- The splat with the exponent as a dot product: at `(n, ch)` the sum over primitives of weight × colour. -/
def splatDot : (⟨2, ![65536, 3]⟩ : Shape).Idx → EReal := fun i =>
  ∑ k : Fin 1024, Ideal.exp (expoDot x mu rot sc (i 0 : Fin 65536) k) * col (ix2 k (i 1 : Fin 3))

/-- The splat with the exponent from the differences. -/
def splat : (⟨2, ![65536, 3]⟩ : Shape).Idx → EReal := fun i =>
  ∑ k : Fin 1024, Ideal.exp (expoDirect x mu rot sc (i 0 : Fin 65536) k) * col (ix2 k (i 1 : Fin 3))

variable {x mu rot sc}

/-- With finite points, means, rotations and scales the two exponents agree. -/
theorem expoDot_eq_expoDirect (hx : ∀ i, IsReal (x i)) (hmu : ∀ i, IsReal (mu i)) (hrot : ∀ i, IsReal (rot i))
    (hsc : ∀ i, IsReal (sc i)) (n : Fin 65536) (k : Fin 1024) : expoDot x mu rot sc n k = expoDirect x mu rot sc n k := by
  obtain ⟨a, ha⟩ := cov00_real hrot hsc k
  obtain ⟨b, hb⟩ := cov01_real hrot hsc k
  obtain ⟨c, hc⟩ := cov11_real hrot hsc k
  obtain ⟨m0, hm0⟩ := hmu (ix2 k 0)
  obtain ⟨m1, hm1⟩ := hmu (ix2 k 1)
  obtain ⟨x0, hx0⟩ := hx (ix2 n 0)
  obtain ⟨x1, hx1⟩ := hx (ix2 n 1)
  unfold expoDot expoDirect
  rw [ha, hb, hc, hm0, hm1, hx0, hx1]
  exact dot_eq_direct a b c m0 m1 x0 x1

/-- So the two results agree. -/
theorem splatDot_eq_splat (hx : ∀ i, IsReal (x i)) (hmu : ∀ i, IsReal (mu i)) (hrot : ∀ i, IsReal (rot i))
    (hsc : ∀ i, IsReal (sc i)) : splatDot x col mu rot sc = splat x col mu rot sc := by
  funext i
  unfold splatDot splat
  refine Finset.sum_congr rfl fun k _ => ?_
  exact congrArg (fun e => Ideal.exp e * col (ix2 k (i 1 : Fin 3))) (expoDot_eq_expoDirect hx hmu hrot hsc (i 0) k)

end Result

end Cert.Splat

end
-- ==== Proof.LibColumns.lean ====
/-
  Column and row selections read at an index written by coordinates, for any number of rows `n`: column 0 or column 1
  of an `[n, 2]` array as an `[n, 1]` array, the first six rows of an `[8, n]` array, and an `[n, 1]` array flattened
  to a vector of extent `n`.
-/
import Idealize.ShloMosaic.Lib.Pipeline.Value
import Idealize.ShloMosaic.Lib.ValueIdx

namespace Cert.LibColumns

open Idealize.ShloMosaic Idealize.ShloMosaic.ValueIdx

variable {α : Type}

/-- Column 0 of an `[n, 2]` array, as an `[n, 1]` array, at row `r`. -/
theorem slice_col0 {n : ℕ} (X : (⟨2, ![n, 2]⟩ : Shape).Idx → α)
    (h : (⟨2, ![n, 2]⟩ : Shape).Slices ![0, 0] ⟨2, ![n, 1]⟩) (r : Fin n) (u : Fin 1) :
    extractStridedSlice ⟨2, ![n, 1]⟩ ![0, 0] X h (ix2 r u) = X (ix2 r (0 : Fin 2)) :=
  extractStridedSlice_apply ![0, 0] X h (ix2 r u) (ix2 r (0 : Fin 2)) fun a =>
    match a with
    | ⟨0, _⟩ => by show r.val = 0 + r.val; omega
    | ⟨1, _⟩ => by show 0 = 0 + u.val; omega

/-- Column 1 of an `[n, 2]` array, as an `[n, 1]` array, at row `r`. -/
theorem slice_col1 {n : ℕ} (X : (⟨2, ![n, 2]⟩ : Shape).Idx → α)
    (h : (⟨2, ![n, 2]⟩ : Shape).Slices ![0, 1] ⟨2, ![n, 1]⟩) (r : Fin n) (u : Fin 1) :
    extractStridedSlice ⟨2, ![n, 1]⟩ ![0, 1] X h (ix2 r u) = X (ix2 r (1 : Fin 2)) :=
  extractStridedSlice_apply ![0, 1] X h (ix2 r u) (ix2 r (1 : Fin 2)) fun a =>
    match a with
    | ⟨0, _⟩ => by show r.val = 0 + r.val; omega
    | ⟨1, _⟩ => by show 1 = 1 + u.val; omega

/-- The first six rows of an `[8, n]` array, at `(j, k)`. -/
theorem slice_rows6 {n : ℕ} (C : (⟨2, ![8, n]⟩ : Shape).Idx → α)
    (h : (⟨2, ![8, n]⟩ : Shape).Slices ![0, 0] ⟨2, ![6, n]⟩) (j : Fin 6) (k : Fin n) :
    extractStridedSlice ⟨2, ![6, n]⟩ ![0, 0] C h (ix2 j k) = C (ix2 (Fin.castLE (by decide : 6 ≤ 8) j) k) :=
  extractStridedSlice_apply ![0, 0] C h (ix2 j k) (ix2 (Fin.castLE (by decide : 6 ≤ 8) j) k) fun a =>
    match a with
    | ⟨0, _⟩ => by show j.val = 0 + j.val; omega
    | ⟨1, _⟩ => by show k.val = 0 + k.val; omega

/-- An `[n, 1]` array flattened to a vector, at `k`. -/
theorem reshape_col {n : ℕ} (x : (⟨2, ![n, 1]⟩ : Shape).Idx → α)
    (h : (⟨2, ![n, 1]⟩ : Shape).ShapeCasts ⟨1, ![n]⟩) (k : Fin n) :
    shapeCast ⟨1, ![n]⟩ x h (ix1 k) = x (ix2 k (0 : Fin 1)) :=
  shapeCast_apply x h (ix1 k) (ix2 k (0 : Fin 1))
    (by rewrite [Shape.rowMajor_val_two, Shape.rowMajor_val_one]; show k.val * 1 + 0 = k.val; omega)

end Cert.LibColumns
-- ==== Proof.Pay.lean ====
/-
  The body's value at an index.

  The body forms, for each of the block's 1024 points, the six monomials of its two coordinates, multiplies that
  1024×6 matrix with the first six rows of the 8×1024 coefficient block, exponentiates every entry, and multiplies the
  resulting 1024×1024 weights with the 1024×3 colours.  On the extended reals the two matrix products into a zero
  accumulator are plain sums over the contracted axis and the changes of float format are the identity, so the value
  at `(r, ch)` is the sum over primitives `k` of `exp (∑ⱼ monomial_j(point r) · coef(j, k)) · colour(k, ch)`.
-/
import proofs.«155513_j89326729822767_2_alg».proof.Proof.Gen.KernelIdeal.Skeleton
import proofs.«155513_j89326729822767_2_alg».proof.Proof.LibMatmulPlain
import proofs.«155513_j89326729822767_2_alg».proof.Proof.Spec
import proofs.«155513_j89326729822767_2_alg».proof.Proof.LibColumns
import Idealize.ShloMosaic.Lib.Pipeline.Value

set_option maxRecDepth 16384

noncomputable section
namespace Cert.KernelIdeal.Pay
open Idealize.ShloMosaic Idealize.ShloMosaic.ValueIdx
open Cert.KernelIdeal Cert.KernelIdeal.Gen Cert.Splat

/-- The six monomial columns of a block of points. -/
abbrev col0 (X : Vec Ideal S1024x2 .f32) : FVec Ideal S1024x1 .f32 := extractStridedSlice S1024x1 ![0, 0] X slices_S1024x2_o0_0_S1024x1
abbrev col1 (X : Vec Ideal S1024x2 .f32) : FVec Ideal S1024x1 .f32 := extractStridedSlice S1024x1 ![0, 1] X slices_S1024x2_o0_1_S1024x1
abbrev monoPieces (X : Vec Ideal S1024x2 .f32) : List ((s : Shape) × (s.Idx → EReal)) :=
  [⟨S1024x1, (mulf (col0 X) (col0 X) : FVec Ideal S1024x1 .f32)⟩,
   ⟨S1024x1, (mulf (col0 X) (col1 X) : FVec Ideal S1024x1 .f32)⟩,
   ⟨S1024x1, (mulf (col1 X) (col1 X) : FVec Ideal S1024x1 .f32)⟩,
   ⟨S1024x1, col0 X⟩,
   ⟨S1024x1, col1 X⟩,
   ⟨S1024x1, (broadcast S1024x1 (Scalar.ofBits (F := Ideal) .f32 0x3F800000#32) : FVec Ideal S1024x1 .f32)⟩]

/-- The six monomial columns side by side, at `(r, j)`. -/
theorem monomials_apply (X : Vec Ideal S1024x2 .f32) (r : Fin 1024) (j : Fin 6) :
    concatenate S1024x6 1 (monoPieces X) concatenates_S1024x1_S1024x1_S1024x1_S1024x1_S1024x1_S1024x1_S1024x6_d1 (ix2 r j)
      = monomials (X (ix2 r 0)) (X (ix2 r 1)) j := by
  have hi : ∀ (j : Fin 6) (b : Fin 2), b.cast rfl ≠ (1 : Fin 2) →
      ((ix2 r (0 : Fin 1) : S1024x1.Idx) b).val = ((ix2 r j : S1024x6.Idx) (b.cast rfl)).val :=
    fun j b hb => match b with | ⟨0, _⟩ => rfl | ⟨1, _⟩ => absurd rfl hb
  have key : ∀ (n : ℕ) (hn : n < 6) (x₁ : S1024x1.Idx → EReal), (monoPieces X)[n]'hn = ⟨S1024x1, x₁⟩ →
      concatenate S1024x6 1 (monoPieces X) concatenates_S1024x1_S1024x1_S1024x1_S1024x1_S1024x1_S1024x1_S1024x6_d1 (ix2 r ⟨n, hn⟩)
        = x₁ (ix2 r (0 : Fin 1)) := fun n hn x₁ hx =>
    concatenate_apply_piece (1 : Fin 2) (monoPieces X) _ (ix2 r ⟨n, hn⟩) n hn S1024x1 x₁ hx rfl n
      (by interval_cases n <;> rfl) (ix2 r (0 : Fin 1)) (hi ⟨n, hn⟩) rfl
  match j with
  | ⟨0, h⟩ => rw [key 0 h _ rfl]; exact congrArg₂ (· * ·) (LibColumns.slice_col0 X _ r 0) (LibColumns.slice_col0 X _ r 0)
  | ⟨1, h⟩ => rw [key 1 h _ rfl]; exact congrArg₂ (· * ·) (LibColumns.slice_col0 X _ r 0) (LibColumns.slice_col1 X _ r 0)
  | ⟨2, h⟩ => rw [key 2 h _ rfl]; exact congrArg₂ (· * ·) (LibColumns.slice_col1 X _ r 0) (LibColumns.slice_col1 X _ r 0)
  | ⟨3, h⟩ => rw [key 3 h _ rfl]; exact LibColumns.slice_col0 X _ r 0
  | ⟨4, h⟩ => rw [key 4 h _ rfl]; exact LibColumns.slice_col1 X _ r 0
  | ⟨5, h⟩ => rw [key 5 h _ rfl]; rfl

/-- The body's stored value at `(r, ch)`, from the three loaded blocks. -/
theorem pay_apply (X : Vec Ideal S1024x2 .f32) (CO : Vec Ideal S8x1024 .f32) (CL : Vec Ideal S1024x3 .f32)
    (r : Fin 1024) (ch : Fin 3) :
    k0_pay1 X CO CL (ix2 r ch)
      = ∑ k : Fin 1024, Ideal.exp (∑ j : Fin 6, monomials (X (ix2 r 0)) (X (ix2 r 1)) j
          * CO (ix2 (Fin.castLE (by decide : 6 ≤ 8) j) k)) * CL (ix2 k ch) := by
  unfold k0_pay1
  refine (Cert.LibMatmulPlain.matmul_plain_zero_apply none _ _ r ch).trans ?_
  refine Finset.sum_congr rfl fun k _ => ?_
  refine congrArg₂ (· * ·) (congrArg Ideal.exp ?_) rfl
  refine (Cert.LibMatmulPlain.matmul_plain_zero_apply (some .fp32) _ _ r k).trans ?_
  refine Finset.sum_congr rfl fun j _ => ?_
  exact congrArg₂ (· * ·) (monomials_apply X r j)
    ((LibColumns.slice_rows6 _ _ j k).trans (congrFun (shapeCast_self CO _) _))

end Cert.KernelIdeal.Pay
end
-- ==== Proof.LibHostBroadcast.lean ====
/-
  The host's `broadcast_in_dim` forms of a row-wise scale and a bias read at an index written by coordinates.

  A column `[a, 1]` placed on both axes of `[a, b]` is repeated along each row; a row `[1, b]` placed on both axes of
  `[a, b]` is repeated along each column; a vector of extent `b` placed on axis 1 of `[1, b]` is the row itself; a
  scalar placed on no axis fills the shape. Each reads its operand at the evident coordinate.
-/
import Idealize.ShloMosaic.Lib.Pipeline.Value
import Idealize.ShloMosaic.Lib.ValueIdx

namespace Cert.LibHostBroadcast

open Idealize.ShloMosaic Idealize.ShloMosaic.ValueIdx

variable {α : Type}

/-- A column `[a, 1]` placed on axes `(0, 1)` of `[a, b]` reads, at `(p, q)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (q : Fin b) :
    broadcastInDim ⟨2, ![a, b]⟩ (![0, 1] : Fin 2 → Fin 2) h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes `(0, 1)` of `[a, b]` reads, at `(p, q)`, the row at column `q`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector of extent `b` placed on axis 1 of the row shape `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2))
    (u : Fin 1) (q : Fin b) : broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A scalar placed on no axis of a shape reads, anywhere, the scalar. -/
theorem broadcastInDim_scalar_apply {t : Shape} (x : (⟨0, ![]⟩ : Shape).Idx → α)
    (h : (⟨0, ![]⟩ : Shape).BroadcastsInDim t (![] : Fin 0 → Fin t.rank)) (i : t.Idx) :
    broadcastInDim t (![] : Fin 0 → Fin t.rank) h x i = x ix0 :=
  broadcastInDim_apply _ h x i ix0 fun ax => ax.elim0

end Cert.LibHostBroadcast
-- ==== Proof.LibHostApply.lean ====
/-
  The host's elementwise exponential, cosine, sine and negation of an array of extended reals, read at an index.
-/
import Idealize.ShloMosaic.PureOps
import Idealize.ShloMosaic.PureOps.Ideal

namespace Cert.LibHostApply

open Idealize.ShloMosaic

theorem hostExp_apply {s : Shape} (x : FVec Ideal s .f32) (i : s.Idx) : Host.exp x i = Ideal.exp (x i) := rfl
theorem hostCos_apply {s : Shape} (x : FVec Ideal s .f32) (i : s.Idx) : Host.cos x i = Ideal.cos (x i) := rfl
theorem hostSin_apply {s : Shape} (x : FVec Ideal s .f32) (i : s.Idx) : Host.sin x i = Ideal.sin (x i) := rfl
theorem hostNegf_apply {s : Shape} (x : FVec Ideal s .f32) (i : s.Idx) : Host.negf x i = -(x i) := rfl

end Cert.LibHostApply
-- ==== Proof.HostRowsA.lean ====
/-
  Rows 0, 1, 2 of the coefficient array the region finds: −½·A, −B, −½·C.

  The coefficient array is eight rows of 1024 stacked: the six coefficient rows of the primitives and two rows of
  zeros.  Row `j` at primitive `k` is read by following the host operations back from the stacked array to the
  argument arrays: the stack picks its `j`-th piece, a row placed on axis 1 reads the vector, the elementwise
  operations read their operands at `k`, a flattened column slice reads the argument at `(k, 0)` or `(k, 1)`.
-/
import proofs.«155513_j89326729822767_2_alg».proof.Proof.FrameKI
import proofs.«155513_j89326729822767_2_alg».proof.Proof.LibHostBroadcast
import proofs.«155513_j89326729822767_2_alg».proof.Proof.Spec
import proofs.«155513_j89326729822767_2_alg».proof.Proof.LibColumns
import proofs.«155513_j89326729822767_2_alg».proof.Proof.LibHostApply
import Idealize.ShloMosaic.Lib.Pipeline.Value
import Idealize.ShloMosaic.Lib.StableHlo.Run

set_option maxRecDepth 16384

noncomputable section
namespace Cert.KernelIdeal.HostVal
open Idealize.ShloMosaic Idealize.ShloMosaic.TcCoe Idealize.SL.Sem Idealize.ShloMosaic.StableHlo Idealize.ShloMosaic.ValueIdx
open Cert.KernelIdeal Cert.KernelIdeal.Gen Cert.KernelIdeal.Frm Cert Cert.Splat Cert.LibHostApply

variable (m : (ℓ : Loc nD τ sig) → Buf (Elt Ideal) ℓ)

set_option maxHeartbeats 8000000 in
/-- Row 0 of the coefficient array the region finds, at primitive `k`. -/
theorem row0 (c : Dev nD) (k : Fin 1024) :
    (Frm.V m c main_v59 : S8x1024.Idx → EReal) (ix2 (0 : Fin 8) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) (0 : Fin 6) := by
  show StableHlo.after hostOps0 (fun b => m (c, b)) (Proc.devRef .tc main_v59) (ix2 (0 : Fin 8) k) = _
  simp only [after_cons, after_nil]
  rw [nary_result]
  refine (concatenate_apply_piece (0 : Fin 2) _ _ (ix2 (0 : Fin 8) k) 0 (by show (0 : ℕ) < 8; omega) S1x1024 _ rfl rfl 0 rfl
    (ix2 (0 : Fin 1) k) (fun b hb => match b with | ⟨0, _⟩ => absurd rfl hb | ⟨1, _⟩ => rfl) rfl).trans ?_
  dsimp only [Matrix.cons_val]
  after_results_simp
  rw [LibHostBroadcast.broadcastInDim_b_1b_apply]
  have e0 : ∀ x : S1024x1.Idx → EReal, shapeCast main_v0.ty.shape x shapeCasts_S1024x1_S1024 (ix1 k) = x (ix2 k 0) :=
    fun x => LibColumns.reshape_col x _ k
  have e2 : ∀ x : S1024x1.Idx → EReal, shapeCast main_v2.ty.shape x shapeCasts_S1024x1_S1024 (ix1 k) = x (ix2 k 0) :=
    fun x => LibColumns.reshape_col x _ k
  have e5 : ∀ x : S1024x1.Idx → EReal, shapeCast main_v5.ty.shape x shapeCasts_S1024x1_S1024 (ix1 k) = x (ix2 k 0) :=
    fun x => LibColumns.reshape_col x _ k
  have e24 : ∀ x : S1024x1.Idx → EReal, shapeCast main_v24.ty.shape x shapeCasts_S1024x1_S1024 (ix1 k) = x (ix2 k 0) :=
    fun x => LibColumns.reshape_col x _ k
  have e26 : ∀ x : S1024x1.Idx → EReal, shapeCast main_v26.ty.shape x shapeCasts_S1024x1_S1024 (ix1 k) = x (ix2 k 0) :=
    fun x => LibColumns.reshape_col x _ k
  have s0 : ∀ X : S1024x2.Idx → EReal, extractStridedSlice S1024x1 ![0, 0] X slices_S1024x2_S1024x1_0_0 (ix2 k (0 : Fin 1)) = X (ix2 k 0) :=
    fun X => LibColumns.slice_col0 X _ k 0
  have s1 : ∀ X : S1024x2.Idx → EReal, extractStridedSlice S1024x1 ![0, 1] X slices_S1024x2_S1024x1_0_1 (ix2 k (0 : Fin 1)) = X (ix2 k 1) :=
    fun X => LibColumns.slice_col1 X _ k 0
  have b0 : ∀ x : S_.Idx → EReal, broadcastInDim S1024 ![] bcast_S_S1024 x (ix1 k) = x ix0 :=
    fun x => LibHostBroadcast.broadcastInDim_scalar_apply x _ _
  simp only [mulf_apply, addf_apply, hostExp_apply, hostCos_apply, hostSin_apply, hostNegf_apply, e0, e2, e5, e24, e26, s0, s1, b0]
  rfl

set_option maxHeartbeats 8000000 in
/-- Row 1 of the coefficient array the region finds, at primitive `k`. -/
theorem row1 (c : Dev nD) (k : Fin 1024) :
    (Frm.V m c main_v59 : S8x1024.Idx → EReal) (ix2 (1 : Fin 8) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) (1 : Fin 6) := by
  show StableHlo.after hostOps0 (fun b => m (c, b)) (Proc.devRef .tc main_v59) (ix2 (1 : Fin 8) k) = _
  simp only [after_cons, after_nil]
  rw [nary_result]
  refine (concatenate_apply_piece (0 : Fin 2) _ _ (ix2 (1 : Fin 8) k) 1 (by show (1 : ℕ) < 8; omega) S1x1024 _ rfl rfl 1 rfl
    (ix2 (0 : Fin 1) k) (fun b hb => match b with | ⟨0, _⟩ => absurd rfl hb | ⟨1, _⟩ => rfl) rfl).trans ?_
  dsimp only [Matrix.cons_val]
  after_results_simp
  rw [LibHostBroadcast.broadcastInDim_b_1b_apply]
  have e0 : ∀ x : S1024x1.Idx → EReal, shapeCast main_v0.ty.shape x shapeCasts_S1024x1_S1024 (ix1 k) = x (ix2 k 0) :=
    fun x => LibColumns.reshape_col x _ k
  have e2 : ∀ x : S1024x1.Idx → EReal, shapeCast main_v2.ty.shape x shapeCasts_S1024x1_S1024 (ix1 k) = x (ix2 k 0) :=
    fun x => LibColumns.reshape_col x _ k
  have e5 : ∀ x : S1024x1.Idx → EReal, shapeCast main_v5.ty.shape x shapeCasts_S1024x1_S1024 (ix1 k) = x (ix2 k 0) :=
    fun x => LibColumns.reshape_col x _ k
  have e24 : ∀ x : S1024x1.Idx → EReal, shapeCast main_v24.ty.shape x shapeCasts_S1024x1_S1024 (ix1 k) = x (ix2 k 0) :=
    fun x => LibColumns.reshape_col x _ k
  have e26 : ∀ x : S1024x1.Idx → EReal, shapeCast main_v26.ty.shape x shapeCasts_S1024x1_S1024 (ix1 k) = x (ix2 k 0) :=
    fun x => LibColumns.reshape_col x _ k
  have s0 : ∀ X : S1024x2.Idx → EReal, extractStridedSlice S1024x1 ![0, 0] X slices_S1024x2_S1024x1_0_0 (ix2 k (0 : Fin 1)) = X (ix2 k 0) :=
    fun X => LibColumns.slice_col0 X _ k 0
  have s1 : ∀ X : S1024x2.Idx → EReal, extractStridedSlice S1024x1 ![0, 1] X slices_S1024x2_S1024x1_0_1 (ix2 k (0 : Fin 1)) = X (ix2 k 1) :=
    fun X => LibColumns.slice_col1 X _ k 0
  have b0 : ∀ x : S_.Idx → EReal, broadcastInDim S1024 ![] bcast_S_S1024 x (ix1 k) = x ix0 :=
    fun x => LibHostBroadcast.broadcastInDim_scalar_apply x _ _
  simp only [mulf_apply, addf_apply, hostExp_apply, hostCos_apply, hostSin_apply, hostNegf_apply, e0, e2, e5, e24, e26, s0, s1, b0]
  rfl

set_option maxHeartbeats 8000000 in
/-- Row 2 of the coefficient array the region finds, at primitive `k`. -/
theorem row2 (c : Dev nD) (k : Fin 1024) :
    (Frm.V m c main_v59 : S8x1024.Idx → EReal) (ix2 (2 : Fin 8) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) (2 : Fin 6) := by
  show StableHlo.after hostOps0 (fun b => m (c, b)) (Proc.devRef .tc main_v59) (ix2 (2 : Fin 8) k) = _
  simp only [after_cons, after_nil]
  rw [nary_result]
  refine (concatenate_apply_piece (0 : Fin 2) _ _ (ix2 (2 : Fin 8) k) 2 (by show (2 : ℕ) < 8; omega) S1x1024 _ rfl rfl 2 rfl
    (ix2 (0 : Fin 1) k) (fun b hb => match b with | ⟨0, _⟩ => absurd rfl hb | ⟨1, _⟩ => rfl) rfl).trans ?_
  dsimp only [Matrix.cons_val]
  after_results_simp
  rw [LibHostBroadcast.broadcastInDim_b_1b_apply]
  have e0 : ∀ x : S1024x1.Idx → EReal, shapeCast main_v0.ty.shape x shapeCasts_S1024x1_S1024 (ix1 k) = x (ix2 k 0) :=
    fun x => LibColumns.reshape_col x _ k
  have e2 : ∀ x : S1024x1.Idx → EReal, shapeCast main_v2.ty.shape x shapeCasts_S1024x1_S1024 (ix1 k) = x (ix2 k 0) :=
    fun x => LibColumns.reshape_col x _ k
  have e5 : ∀ x : S1024x1.Idx → EReal, shapeCast main_v5.ty.shape x shapeCasts_S1024x1_S1024 (ix1 k) = x (ix2 k 0) :=
    fun x => LibColumns.reshape_col x _ k
  have e24 : ∀ x : S1024x1.Idx → EReal, shapeCast main_v24.ty.shape x shapeCasts_S1024x1_S1024 (ix1 k) = x (ix2 k 0) :=
    fun x => LibColumns.reshape_col x _ k
  have e26 : ∀ x : S1024x1.Idx → EReal, shapeCast main_v26.ty.shape x shapeCasts_S1024x1_S1024 (ix1 k) = x (ix2 k 0) :=
    fun x => LibColumns.reshape_col x _ k
  have s0 : ∀ X : S1024x2.Idx → EReal, extractStridedSlice S1024x1 ![0, 0] X slices_S1024x2_S1024x1_0_0 (ix2 k (0 : Fin 1)) = X (ix2 k 0) :=
    fun X => LibColumns.slice_col0 X _ k 0
  have s1 : ∀ X : S1024x2.Idx → EReal, extractStridedSlice S1024x1 ![0, 1] X slices_S1024x2_S1024x1_0_1 (ix2 k (0 : Fin 1)) = X (ix2 k 1) :=
    fun X => LibColumns.slice_col1 X _ k 0
  have b0 : ∀ x : S_.Idx → EReal, broadcastInDim S1024 ![] bcast_S_S1024 x (ix1 k) = x ix0 :=
    fun x => LibHostBroadcast.broadcastInDim_scalar_apply x _ _
  simp only [mulf_apply, addf_apply, hostExp_apply, hostCos_apply, hostSin_apply, hostNegf_apply, e0, e2, e5, e24, e26, s0, s1, b0]
  rfl

end Cert.KernelIdeal.HostVal
end
-- ==== Proof.HostRowsB.lean ====
/-
  Rows 3 and 4 of the coefficient array the region finds: A·μ₀ + B·μ₁ and B·μ₀ + C·μ₁.

  The coefficient array is eight rows of 1024 stacked: the six coefficient rows of the primitives and two rows of
  zeros.  Row `j` at primitive `k` is read by following the host operations back from the stacked array to the
  argument arrays: the stack picks its `j`-th piece, a row placed on axis 1 reads the vector, the elementwise
  operations read their operands at `k`, a flattened column slice reads the argument at `(k, 0)` or `(k, 1)`.
-/
import proofs.«155513_j89326729822767_2_alg».proof.Proof.FrameKI
import proofs.«155513_j89326729822767_2_alg».proof.Proof.LibHostBroadcast
import proofs.«155513_j89326729822767_2_alg».proof.Proof.Spec
import proofs.«155513_j89326729822767_2_alg».proof.Proof.LibColumns
import proofs.«155513_j89326729822767_2_alg».proof.Proof.LibHostApply
import Idealize.ShloMosaic.Lib.Pipeline.Value
import Idealize.ShloMosaic.Lib.StableHlo.Run

set_option maxRecDepth 16384

noncomputable section
namespace Cert.KernelIdeal.HostVal
open Idealize.ShloMosaic Idealize.ShloMosaic.TcCoe Idealize.SL.Sem Idealize.ShloMosaic.StableHlo Idealize.ShloMosaic.ValueIdx
open Cert.KernelIdeal Cert.KernelIdeal.Gen Cert.KernelIdeal.Frm Cert Cert.Splat Cert.LibHostApply

variable (m : (ℓ : Loc nD τ sig) → Buf (Elt Ideal) ℓ)

set_option maxHeartbeats 8000000 in
/-- Row 3 of the coefficient array the region finds, at primitive `k`. -/
theorem row3 (c : Dev nD) (k : Fin 1024) :
    (Frm.V m c main_v59 : S8x1024.Idx → EReal) (ix2 (3 : Fin 8) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) (3 : Fin 6) := by
  show StableHlo.after hostOps0 (fun b => m (c, b)) (Proc.devRef .tc main_v59) (ix2 (3 : Fin 8) k) = _
  simp only [after_cons, after_nil]
  rw [nary_result]
  refine (concatenate_apply_piece (0 : Fin 2) _ _ (ix2 (3 : Fin 8) k) 3 (by show (3 : ℕ) < 8; omega) S1x1024 _ rfl rfl 3 rfl
    (ix2 (0 : Fin 1) k) (fun b hb => match b with | ⟨0, _⟩ => absurd rfl hb | ⟨1, _⟩ => rfl) rfl).trans ?_
  dsimp only [Matrix.cons_val]
  after_results_simp
  rw [LibHostBroadcast.broadcastInDim_b_1b_apply]
  have e0 : ∀ x : S1024x1.Idx → EReal, shapeCast main_v0.ty.shape x shapeCasts_S1024x1_S1024 (ix1 k) = x (ix2 k 0) :=
    fun x => LibColumns.reshape_col x _ k
  have e2 : ∀ x : S1024x1.Idx → EReal, shapeCast main_v2.ty.shape x shapeCasts_S1024x1_S1024 (ix1 k) = x (ix2 k 0) :=
    fun x => LibColumns.reshape_col x _ k
  have e5 : ∀ x : S1024x1.Idx → EReal, shapeCast main_v5.ty.shape x shapeCasts_S1024x1_S1024 (ix1 k) = x (ix2 k 0) :=
    fun x => LibColumns.reshape_col x _ k
  have e24 : ∀ x : S1024x1.Idx → EReal, shapeCast main_v24.ty.shape x shapeCasts_S1024x1_S1024 (ix1 k) = x (ix2 k 0) :=
    fun x => LibColumns.reshape_col x _ k
  have e26 : ∀ x : S1024x1.Idx → EReal, shapeCast main_v26.ty.shape x shapeCasts_S1024x1_S1024 (ix1 k) = x (ix2 k 0) :=
    fun x => LibColumns.reshape_col x _ k
  have s0 : ∀ X : S1024x2.Idx → EReal, extractStridedSlice S1024x1 ![0, 0] X slices_S1024x2_S1024x1_0_0 (ix2 k (0 : Fin 1)) = X (ix2 k 0) :=
    fun X => LibColumns.slice_col0 X _ k 0
  have s1 : ∀ X : S1024x2.Idx → EReal, extractStridedSlice S1024x1 ![0, 1] X slices_S1024x2_S1024x1_0_1 (ix2 k (0 : Fin 1)) = X (ix2 k 1) :=
    fun X => LibColumns.slice_col1 X _ k 0
  have b0 : ∀ x : S_.Idx → EReal, broadcastInDim S1024 ![] bcast_S_S1024 x (ix1 k) = x ix0 :=
    fun x => LibHostBroadcast.broadcastInDim_scalar_apply x _ _
  simp only [mulf_apply, addf_apply, hostExp_apply, hostCos_apply, hostSin_apply, hostNegf_apply, e0, e2, e5, e24, e26, s0, s1, b0]
  rfl

set_option maxHeartbeats 8000000 in
/-- Row 4 of the coefficient array the region finds, at primitive `k`. -/
theorem row4 (c : Dev nD) (k : Fin 1024) :
    (Frm.V m c main_v59 : S8x1024.Idx → EReal) (ix2 (4 : Fin 8) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) (4 : Fin 6) := by
  show StableHlo.after hostOps0 (fun b => m (c, b)) (Proc.devRef .tc main_v59) (ix2 (4 : Fin 8) k) = _
  simp only [after_cons, after_nil]
  rw [nary_result]
  refine (concatenate_apply_piece (0 : Fin 2) _ _ (ix2 (4 : Fin 8) k) 4 (by show (4 : ℕ) < 8; omega) S1x1024 _ rfl rfl 4 rfl
    (ix2 (0 : Fin 1) k) (fun b hb => match b with | ⟨0, _⟩ => absurd rfl hb | ⟨1, _⟩ => rfl) rfl).trans ?_
  dsimp only [Matrix.cons_val]
  after_results_simp
  rw [LibHostBroadcast.broadcastInDim_b_1b_apply]
  have e0 : ∀ x : S1024x1.Idx → EReal, shapeCast main_v0.ty.shape x shapeCasts_S1024x1_S1024 (ix1 k) = x (ix2 k 0) :=
    fun x => LibColumns.reshape_col x _ k
  have e2 : ∀ x : S1024x1.Idx → EReal, shapeCast main_v2.ty.shape x shapeCasts_S1024x1_S1024 (ix1 k) = x (ix2 k 0) :=
    fun x => LibColumns.reshape_col x _ k
  have e5 : ∀ x : S1024x1.Idx → EReal, shapeCast main_v5.ty.shape x shapeCasts_S1024x1_S1024 (ix1 k) = x (ix2 k 0) :=
    fun x => LibColumns.reshape_col x _ k
  have e24 : ∀ x : S1024x1.Idx → EReal, shapeCast main_v24.ty.shape x shapeCasts_S1024x1_S1024 (ix1 k) = x (ix2 k 0) :=
    fun x => LibColumns.reshape_col x _ k
  have e26 : ∀ x : S1024x1.Idx → EReal, shapeCast main_v26.ty.shape x shapeCasts_S1024x1_S1024 (ix1 k) = x (ix2 k 0) :=
    fun x => LibColumns.reshape_col x _ k
  have s0 : ∀ X : S1024x2.Idx → EReal, extractStridedSlice S1024x1 ![0, 0] X slices_S1024x2_S1024x1_0_0 (ix2 k (0 : Fin 1)) = X (ix2 k 0) :=
    fun X => LibColumns.slice_col0 X _ k 0
  have s1 : ∀ X : S1024x2.Idx → EReal, extractStridedSlice S1024x1 ![0, 1] X slices_S1024x2_S1024x1_0_1 (ix2 k (0 : Fin 1)) = X (ix2 k 1) :=
    fun X => LibColumns.slice_col1 X _ k 0
  have b0 : ∀ x : S_.Idx → EReal, broadcastInDim S1024 ![] bcast_S_S1024 x (ix1 k) = x ix0 :=
    fun x => LibHostBroadcast.broadcastInDim_scalar_apply x _ _
  simp only [mulf_apply, addf_apply, hostExp_apply, hostCos_apply, hostSin_apply, hostNegf_apply, e0, e2, e5, e24, e26, s0, s1, b0]
  rfl

end Cert.KernelIdeal.HostVal
end
-- ==== Proof.HostRowsC.lean ====
/-
  Row 5 of the coefficient array the region finds: −½·(A·μ₀² + 2B·μ₀μ₁ + C·μ₁²).

  The coefficient array is eight rows of 1024 stacked: the six coefficient rows of the primitives and two rows of
  zeros.  Row `j` at primitive `k` is read by following the host operations back from the stacked array to the
  argument arrays: the stack picks its `j`-th piece, a row placed on axis 1 reads the vector, the elementwise
  operations read their operands at `k`, a flattened column slice reads the argument at `(k, 0)` or `(k, 1)`.
-/
import proofs.«155513_j89326729822767_2_alg».proof.Proof.FrameKI
import proofs.«155513_j89326729822767_2_alg».proof.Proof.LibHostBroadcast
import proofs.«155513_j89326729822767_2_alg».proof.Proof.Spec
import proofs.«155513_j89326729822767_2_alg».proof.Proof.LibColumns
import proofs.«155513_j89326729822767_2_alg».proof.Proof.LibHostApply
import Idealize.ShloMosaic.Lib.Pipeline.Value
import Idealize.ShloMosaic.Lib.StableHlo.Run

set_option maxRecDepth 16384

noncomputable section
namespace Cert.KernelIdeal.HostVal
open Idealize.ShloMosaic Idealize.ShloMosaic.TcCoe Idealize.SL.Sem Idealize.ShloMosaic.StableHlo Idealize.ShloMosaic.ValueIdx
open Cert.KernelIdeal Cert.KernelIdeal.Gen Cert.KernelIdeal.Frm Cert Cert.Splat Cert.LibHostApply

variable (m : (ℓ : Loc nD τ sig) → Buf (Elt Ideal) ℓ)

set_option maxHeartbeats 8000000 in
/-- Row 5 of the coefficient array the region finds, at primitive `k`. -/
theorem row5 (c : Dev nD) (k : Fin 1024) :
    (Frm.V m c main_v59 : S8x1024.Idx → EReal) (ix2 (5 : Fin 8) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) (5 : Fin 6) := by
  show StableHlo.after hostOps0 (fun b => m (c, b)) (Proc.devRef .tc main_v59) (ix2 (5 : Fin 8) k) = _
  simp only [after_cons, after_nil]
  rw [nary_result]
  refine (concatenate_apply_piece (0 : Fin 2) _ _ (ix2 (5 : Fin 8) k) 5 (by show (5 : ℕ) < 8; omega) S1x1024 _ rfl rfl 5 rfl
    (ix2 (0 : Fin 1) k) (fun b hb => match b with | ⟨0, _⟩ => absurd rfl hb | ⟨1, _⟩ => rfl) rfl).trans ?_
  dsimp only [Matrix.cons_val]
  after_results_simp
  rw [LibHostBroadcast.broadcastInDim_b_1b_apply]
  have e0 : ∀ x : S1024x1.Idx → EReal, shapeCast main_v0.ty.shape x shapeCasts_S1024x1_S1024 (ix1 k) = x (ix2 k 0) :=
    fun x => LibColumns.reshape_col x _ k
  have e2 : ∀ x : S1024x1.Idx → EReal, shapeCast main_v2.ty.shape x shapeCasts_S1024x1_S1024 (ix1 k) = x (ix2 k 0) :=
    fun x => LibColumns.reshape_col x _ k
  have e5 : ∀ x : S1024x1.Idx → EReal, shapeCast main_v5.ty.shape x shapeCasts_S1024x1_S1024 (ix1 k) = x (ix2 k 0) :=
    fun x => LibColumns.reshape_col x _ k
  have e24 : ∀ x : S1024x1.Idx → EReal, shapeCast main_v24.ty.shape x shapeCasts_S1024x1_S1024 (ix1 k) = x (ix2 k 0) :=
    fun x => LibColumns.reshape_col x _ k
  have e26 : ∀ x : S1024x1.Idx → EReal, shapeCast main_v26.ty.shape x shapeCasts_S1024x1_S1024 (ix1 k) = x (ix2 k 0) :=
    fun x => LibColumns.reshape_col x _ k
  have s0 : ∀ X : S1024x2.Idx → EReal, extractStridedSlice S1024x1 ![0, 0] X slices_S1024x2_S1024x1_0_0 (ix2 k (0 : Fin 1)) = X (ix2 k 0) :=
    fun X => LibColumns.slice_col0 X _ k 0
  have s1 : ∀ X : S1024x2.Idx → EReal, extractStridedSlice S1024x1 ![0, 1] X slices_S1024x2_S1024x1_0_1 (ix2 k (0 : Fin 1)) = X (ix2 k 1) :=
    fun X => LibColumns.slice_col1 X _ k 0
  have b0 : ∀ x : S_.Idx → EReal, broadcastInDim S1024 ![] bcast_S_S1024 x (ix1 k) = x ix0 :=
    fun x => LibHostBroadcast.broadcastInDim_scalar_apply x _ _
  simp only [mulf_apply, addf_apply, hostExp_apply, hostCos_apply, hostSin_apply, hostNegf_apply, e0, e2, e5, e24, e26, s0, s1, b0]
  rfl

end Cert.KernelIdeal.HostVal
end
-- ==== Proof.KValue.lean ====
/-
  The idealized kernel's result array after the run, as one function of the argument arrays.

  Grid point `t` stages rows `1024 t … 1024 t + 1023` of the points, the whole coefficient array and the whole colour
  array, and writes back rows `1024 t … 1024 t + 1023` of the result.  What it writes back is the body's value of the
  three blocks; read at `(p, ch)` that is the sum over primitives of `exp (∑ⱼ monomial_j · coef(j, k)) · colour(k, ch)`
  for the point in row `1024 t + p`, the coefficient rows being those the host operations left in the coefficient
  array.  So every point's write-back is its block of one array-wide function of the arguments, the 64 blocks cover the
  result array, and the array ends as that function.
-/
import proofs.«155513_j89326729822767_2_alg».proof.Proof.FrameKI
import proofs.«155513_j89326729822767_2_alg».proof.Proof.Pay
import proofs.«155513_j89326729822767_2_alg».proof.Proof.HostRowsA
import proofs.«155513_j89326729822767_2_alg».proof.Proof.HostRowsB
import proofs.«155513_j89326729822767_2_alg».proof.Proof.HostRowsC
import proofs.«155513_j89326729822767_2_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.Splat

variable (m : (ℓ : Loc nD τ sig) → Buf (Elt Ideal) ℓ) (ρ : Dev nD → PrngReg)

theorem hz : (![0, 0] : Fin 2 → Nat) = fun _ => 0 := funext fun a => by fin_cases a <;> rfl

/-- The result array as a function of the launch memory: the splat with the exponent as a dot product. -/
def GK (c : Dev nD) : S65536x3.Idx → EReal :=
  splatDot (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The printed index maps over the grid: the points and the result move one block of rows per grid point, the
    coefficients and the colours stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of grid point `t`'s block is row `1024 t + p` of the array. -/
def rowOf (t : Fin cfg0.N) (p : Fin 1024) : Fin 65536 :=
  ⟨t.val * 1024 + p.val, by have := t.isLt; have h : cfg0.N = 64 := N_0; have := p.isLt; omega⟩

/-! ## The blocks the body loads -/

theorem read0 (c : Dev nD) (t : Fin cfg0.N) (p : Fin 1024) (q : Fin 2) :
    iblk m c 0 t (ix2 p q) = (m ((c.tc : Thread nD τ).loc main_arg0) : S65536x2.Idx → EReal) (ix2 (rowOf t p) q) := by
  obtain ⟨e0, e1, -⟩ := idx_facts t
  show Frm.V m c main_arg0 (((cfg0.win 0).blk t).view.emb (ix2 p q)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 2 + 1 * q.val = q.val; omega

theorem read1 (c : Dev nD) (t : Fin cfg0.N) (j : Fin 8) (k : Fin 1024) :
    iblk m c 1 t (ix2 j k) = (Frm.V m c main_v59 : S8x1024.Idx → EReal) (ix2 j k) := by
  obtain ⟨-, -, e2, e3, -⟩ := idx_facts t
  show Frm.V m c main_v59 (((cfg0.win 1).blk t).view.emb (ix2 j k)) = _
  refine congrArg _ (funext fun a => Fin.ext ?_)
  match a with
  | ⟨0, _⟩ => show win0_1.index t (0 : Fin 2) * 8 + 1 * j.val = j.val; omega
  | ⟨1, _⟩ => show win0_1.index t (1 : Fin 2) * 1024 + 1 * k.val = k.val; omega

theorem read2 (c : Dev nD) (t : Fin cfg0.N) (k : Fin 1024) (ch : Fin 3) :
    iblk m c 2 t (ix2 k ch) = (m ((c.tc : Thread nD τ).loc main_arg1) : S1024x3.Idx → EReal) (ix2 k ch) := by
  obtain ⟨-, -, -, -, e4, e5, -⟩ := idx_facts t
  show Frm.V m c main_arg1 (((cfg0.win 2).blk t).view.emb (ix2 k ch)) = _
  rw [V_main_arg1]
  refine congrArg _ (funext fun a => Fin.ext ?_)
  match a with
  | ⟨0, _⟩ => show win0_2.index t (0 : Fin 2) * 1024 + 1 * k.val = k.val; omega
  | ⟨1, _⟩ => show win0_2.index t (1 : Fin 2) * 3 + 1 * ch.val = ch.val; omega

/-- Where the result block's entry `(p, ch)` lies in the result array. -/
theorem emb3 (t : Fin cfg0.N) (p : Fin 1024) (ch : Fin 3) :
    ((cfg0.win 3).blk t).view.emb (ix2 p ch) = (ix2 (rowOf t p) ch : S65536x3.Idx) := by
  obtain ⟨-, -, -, -, -, -, e6, e7⟩ := idx_facts t
  refine funext fun a => Fin.ext ?_
  match a with
  | ⟨0, _⟩ => show win0_3.index t (0 : Fin 2) * 1024 + 1 * p.val = t.val * 1024 + p.val; omega
  | ⟨1, _⟩ => show win0_3.index t (1 : Fin 2) * 3 + 1 * ch.val = ch.val; omega

/-- The coefficient array the region finds, at row `j < 6` and primitive `k`: coefficient `j` of primitive `k`. -/
theorem coef_row (c : Dev nD) (j : Fin 6) (k : Fin 1024) :
    (Frm.V m c main_v59 : S8x1024.Idx → EReal) (ix2 (Fin.castLE (by decide : 6 ≤ 8) j) k)
      = coefs (cov00 (m ((c.tc : Thread nD τ).loc main_arg3)) (m ((c.tc : Thread nD τ).loc main_arg4)) k)
          (cov01 (m ((c.tc : Thread nD τ).loc main_arg3)) (m ((c.tc : Thread nD τ).loc main_arg4)) k)
          (cov11 (m ((c.tc : Thread nD τ).loc main_arg3)) (m ((c.tc : Thread nD τ).loc main_arg4)) k)
          ((m ((c.tc : Thread nD τ).loc main_arg2) : S1024x2.Idx → EReal) (ix2 k 0))
          ((m ((c.tc : Thread nD τ).loc main_arg2) : S1024x2.Idx → EReal) (ix2 k 1)) j :=
  match j with
  | ⟨0, _⟩ => HostVal.row0 m c k
  | ⟨1, _⟩ => HostVal.row1 m c k
  | ⟨2, _⟩ => HostVal.row2 m c k
  | ⟨3, _⟩ => HostVal.row3 m c k
  | ⟨4, _⟩ => HostVal.row4 m c k
  | ⟨5, _⟩ => HostVal.row5 m c k

/-! ## From blocks to the array -/

/-- What grid point `t` writes back is its block of `GK`. -/
theorem flushed3_eq (c : Dev nD) (t : Fin cfg0.N) :
    (dats m 0 c).flushed 3 t = ((cfg0.win 3).blk t).view.read (Elt Ideal) (GK m c) := by
  show (cfg0.win 3).cut (grid0.coords t) ((dats m 0 c).after 3 t) = _
  rw [after0_3]
  unfold out0_3
  rw [View.canon_unit_zero hz]
  simp only [View.ld_unit_zero (S := S1024x2) hz, View.ld_unit_zero (S := S8x1024) hz, View.ld_unit_zero (S := S1024x3) hz]
  funext j
  obtain ⟨p, ch, rfl⟩ : ∃ (p : Fin 1024) (ch : Fin 3), j = (ix2 p ch : S1024x3.Idx) :=
    ⟨j 0, j 1, eq_ix2 (n0 := 1024) (n1 := 3) j⟩
  show k0_pay1 (iblk m c 0 t) (iblk m c 1 t) (iblk m c 2 t) (ix2 p ch)
    = GK m c (((cfg0.win 3).blk t).view.emb (ix2 p ch))
  rw [emb3 t p ch]
  refine (Pay.pay_apply _ _ _ p ch).trans ?_
  show _ = ∑ k : Fin 1024, Ideal.exp (expoDot (m ((c.tc : Thread nD τ).loc main_arg0)) (m ((c.tc : Thread nD τ).loc main_arg2))
      (m ((c.tc : Thread nD τ).loc main_arg3)) (m ((c.tc : Thread nD τ).loc main_arg4)) (rowOf t p) k)
    * (m ((c.tc : Thread nD τ).loc main_arg1) : S1024x3.Idx → EReal) (ix2 k ch)
  refine Finset.sum_congr rfl fun k _ => ?_
  refine congrArg₂ (· * ·) (congrArg Ideal.exp ?_) (read2 m c t k ch)
  unfold expoDot
  refine Finset.sum_congr rfl fun jj _ => ?_
  refine congrArg₂ (· * ·) ?_ ((read1 m c t _ k).trans (coef_row m c jj k))
  rw [read0, read0]

/-- An index of the result array is in grid point `t`'s block iff each coordinate is in the block's range. -/
theorem mem_blk3 (t : Fin cfg0.N) (i : S65536x3.Idx) :
    i ∈ ((cfg0.win 3).blk t).view.set ↔ ∀ a : Fin 2, win0_3.index t a * S1024x3.size a ≤ (i a).val
      ∧ (i a).val < win0_3.index t a * S1024x3.size a + S1024x3.size a := by
  show i ∈ ((View.whole main_v60).slice (win0_3.rect t)).set ↔ _
  rw [View.set_slice_whole, Rect.mem_set_unit]
  exact Iff.rfl

/-- Every index of the result array is in the block of the grid point its row over 1024 names. -/
theorem cover3 (i : S65536x3.Idx) :
    ∃ t : Fin cfg0.N, (cfg0.win 3).flush t = true ∧ i ∈ ((cfg0.win 3).blk t).view.set := by
  have hi0 : (i 0).val < 65536 := (i 0).isLt
  have hi1 : (i 1).val < 3 := (i 1).isLt
  have hN : cfg0.N = 64 := N_0
  have hq : (i 0).val / 1024 < cfg0.N := by rw [hN]; omega
  obtain ⟨-, -, -, -, -, -, e6, e7⟩ := idx_facts ⟨(i 0).val / 1024, hq⟩
  refine ⟨⟨(i 0).val / 1024, hq⟩, flush0_3 _, ?_⟩
  rw [mem_blk3]
  intro a
  match a with
  | ⟨0, _⟩ =>
    show win0_3.index ⟨(i 0).val / 1024, hq⟩ (0 : Fin 2) * 1024 ≤ (i 0).val
      ∧ (i 0).val < win0_3.index ⟨(i 0).val / 1024, hq⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, hq⟩ (1 : Fin 2) * 3 ≤ (i 1).val
      ∧ (i 1).val < win0_3.index ⟨(i 0).val / 1024, hq⟩ (1 : Fin 2) * 3 + 3
    rw [e7]; omega

/-- The result array after the run. -/
theorem final3 (c : Dev nD) : (dats m 0 c).arrAt 3 cfg0.N = GK m c :=
  (dats m 0 c).arrAt_eq_of_cover 3 (GK m c) (fun t _ => flushed3_eq m c t) cover3

/-- The run, read: the result array at `GK` of the launch memory, the arguments as launched. -/
theorem run : θ_run defs (onTc (τ := τ) (main (F := Ideal))) ⟨m, fun _ => 0, ρ⟩ fun r => ∀ c : Dev nD,
      r.2.mem ((c.tc : Thread nD τ).loc main_v60) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (final3 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Val

end
-- ==== Proof.RefValue.lean ====
/-
  The idealized reference's result, as the splat with the exponent from the differences.

  The reference computes the covariance entries of each primitive from the rotations and scales, the differences
  `dx = x₀ − μ₀`, `dy = x₁ − μ₁` of every point against every primitive, the quadratic form
  `A·dx·dx + (2B)·dx·dy + C·dy·dy`, the weight `exp (−½ · form)`, and the product of the weights with the colours.
  Each stage is read at an index written by coordinates, from the argument arrays up; the last stage, a product
  contracted over the primitives, is a plain sum on the extended reals.
-/
import proofs.«155513_j89326729822767_2_alg».proof.Proof.Gen.ReferenceIdeal.Read
import proofs.«155513_j89326729822767_2_alg».proof.Proof.LibHostBroadcast
import proofs.«155513_j89326729822767_2_alg».proof.Proof.LibColumns
import proofs.«155513_j89326729822767_2_alg».proof.Proof.Spec

noncomputable section

namespace Cert.ReferenceIdeal.RefVal

open Cert.ReferenceIdeal Cert.ReferenceIdeal.Gen Cert.ReferenceIdeal.Read Idealize.ShloMosaic Idealize.ShloMosaic.ValueIdx
open Cert.Splat Cert.LibHostBroadcast

/-! ## Rotations and scales, flattened -/

theorem v0_at (x3 : (⟨S1024x1, .f32⟩ : BufTy).Contents (Elt Ideal)) (k : Fin 1024) : val_main_v0 (F := Ideal) x3 (ix1 k) = x3 (ix2 k 0) := by
  unfold val_main_v0; exact LibColumns.reshape_col _ _ k
theorem v1_at (x4 : (⟨S1024x2, .f32⟩ : BufTy).Contents (Elt Ideal)) (k : Fin 1024) (u : Fin 1) : val_main_v1 (F := Ideal) x4 (ix2 k u) = x4 (ix2 k 0) := by
  unfold val_main_v1; exact LibColumns.slice_col0 _ _ k u
theorem v2_at (x4 : (⟨S1024x2, .f32⟩ : BufTy).Contents (Elt Ideal)) (k : Fin 1024) : val_main_v2 (F := Ideal) x4 (ix1 k) = x4 (ix2 k 0) := by
  unfold val_main_v2; exact (LibColumns.reshape_col _ _ k).trans (v1_at x4 k 0)
theorem v4_at (x4 : (⟨S1024x2, .f32⟩ : BufTy).Contents (Elt Ideal)) (k : Fin 1024) (u : Fin 1) : val_main_v4 (F := Ideal) x4 (ix2 k u) = x4 (ix2 k 1) := by
  unfold val_main_v4; exact LibColumns.slice_col1 _ _ k u
theorem v5_at (x4 : (⟨S1024x2, .f32⟩ : BufTy).Contents (Elt Ideal)) (k : Fin 1024) : val_main_v5 (F := Ideal) x4 (ix1 k) = x4 (ix2 k 1) := by
  unfold val_main_v5; exact (LibColumns.reshape_col _ _ k).trans (v4_at x4 k 0)

/-! ## The rotation-scale matrix and the covariance -/

theorem v9_at (x3 : (⟨S1024x1, .f32⟩ : BufTy).Contents (Elt Ideal)) (x4 : (⟨S1024x2, .f32⟩ : BufTy).Contents (Elt Ideal)) (k : Fin 1024) : val_main_v9 (F := Ideal) x3 x4 (ix1 k) = ra x3 x4 k := by
  rw [val_main_v9_apply, val_main_v3_apply, val_main_v7_apply, v2_at, v0_at]; rfl
theorem v11_at (x3 : (⟨S1024x1, .f32⟩ : BufTy).Contents (Elt Ideal)) (x4 : (⟨S1024x2, .f32⟩ : BufTy).Contents (Elt Ideal)) (k : Fin 1024) : val_main_v11 (F := Ideal) x3 x4 (ix1 k) = rb x3 x4 k := by
  rw [val_main_v11_apply, val_main_v10_apply, val_main_v6_apply, val_main_v8_apply, v5_at, v0_at]; rfl
theorem v12_at (x3 : (⟨S1024x1, .f32⟩ : BufTy).Contents (Elt Ideal)) (x4 : (⟨S1024x2, .f32⟩ : BufTy).Contents (Elt Ideal)) (k : Fin 1024) : val_main_v12 (F := Ideal) x3 x4 (ix1 k) = rd x3 x4 k := by
  rw [val_main_v12_apply, val_main_v3_apply, val_main_v8_apply, v2_at, v0_at]; rfl
theorem v13_at (x3 : (⟨S1024x1, .f32⟩ : BufTy).Contents (Elt Ideal)) (x4 : (⟨S1024x2, .f32⟩ : BufTy).Contents (Elt Ideal)) (k : Fin 1024) : val_main_v13 (F := Ideal) x3 x4 (ix1 k) = re x3 x4 k := by
  rw [val_main_v13_apply, val_main_v6_apply, val_main_v7_apply, v5_at, v0_at]; rfl
theorem v16_at (x3 : (⟨S1024x1, .f32⟩ : BufTy).Contents (Elt Ideal)) (x4 : (⟨S1024x2, .f32⟩ : BufTy).Contents (Elt Ideal)) (k : Fin 1024) : val_main_v16 (F := Ideal) x3 x4 (ix1 k) = cov00 x3 x4 k := by
  rw [val_main_v16_apply, val_main_v14_apply, val_main_v15_apply, v9_at, v11_at]; rfl
theorem v19_at (x3 : (⟨S1024x1, .f32⟩ : BufTy).Contents (Elt Ideal)) (x4 : (⟨S1024x2, .f32⟩ : BufTy).Contents (Elt Ideal)) (k : Fin 1024) : val_main_v19 (F := Ideal) x3 x4 (ix1 k) = cov01 x3 x4 k := by
  rw [val_main_v19_apply, val_main_v17_apply, val_main_v18_apply, v9_at, v11_at, v12_at, v13_at]; rfl
theorem v22_at (x3 : (⟨S1024x1, .f32⟩ : BufTy).Contents (Elt Ideal)) (x4 : (⟨S1024x2, .f32⟩ : BufTy).Contents (Elt Ideal)) (k : Fin 1024) : val_main_v22 (F := Ideal) x3 x4 (ix1 k) = cov11 x3 x4 k := by
  rw [val_main_v22_apply, val_main_v20_apply, val_main_v21_apply, v12_at, v13_at]; rfl

/-! ## The differences -/

theorem v23_at (x0 : (⟨S65536x2, .f32⟩ : BufTy).Contents (Elt Ideal)) (n : Fin 65536) (u : Fin 1) : val_main_v23 (F := Ideal) x0 (ix2 n u) = x0 (ix2 n 0) := by
  unfold val_main_v23; exact LibColumns.slice_col0 _ _ n u
theorem v24_at (x2 : (⟨S1024x2, .f32⟩ : BufTy).Contents (Elt Ideal)) (k : Fin 1024) (u : Fin 1) : val_main_v24 (F := Ideal) x2 (ix2 k u) = x2 (ix2 k 0) := by
  unfold val_main_v24; exact LibColumns.slice_col0 _ _ k u
theorem v25_at (x2 : (⟨S1024x2, .f32⟩ : BufTy).Contents (Elt Ideal)) (k : Fin 1024) : val_main_v25 (F := Ideal) x2 (ix1 k) = x2 (ix2 k 0) := by
  unfold val_main_v25; exact (LibColumns.reshape_col _ _ k).trans (v24_at x2 k 0)
theorem v26_at (x2 : (⟨S1024x2, .f32⟩ : BufTy).Contents (Elt Ideal)) (u : Fin 1) (k : Fin 1024) : val_main_v26 (F := Ideal) x2 (ix2 u k) = x2 (ix2 k 0) := by
  unfold val_main_v26; exact (broadcastInDim_b_1b_apply _ _ u k).trans (v25_at x2 k)
theorem v27_at (x0 : (⟨S65536x2, .f32⟩ : BufTy).Contents (Elt Ideal)) (n : Fin 65536) (k : Fin 1024) : val_main_v27 (F := Ideal) x0 (ix2 n k) = x0 (ix2 n 0) := by
  unfold val_main_v27; exact (broadcastInDim_a1_ab_apply _ _ n k).trans (v23_at x0 n 0)
theorem v28_at (x2 : (⟨S1024x2, .f32⟩ : BufTy).Contents (Elt Ideal)) (n : Fin 65536) (k : Fin 1024) : val_main_v28 (F := Ideal) x2 (ix2 n k) = x2 (ix2 k 0) := by
  unfold val_main_v28; exact (broadcastInDim_1b_ab_apply _ _ n k).trans (v26_at x2 0 k)
theorem v29_at (x0 : (⟨S65536x2, .f32⟩ : BufTy).Contents (Elt Ideal)) (x2 : (⟨S1024x2, .f32⟩ : BufTy).Contents (Elt Ideal)) (n : Fin 65536) (k : Fin 1024) :
    val_main_v29 (F := Ideal) x0 x2 (ix2 n k) = x0 (ix2 n 0) - x2 (ix2 k 0) := by
  rw [val_main_v29_apply, v27_at, v28_at]; rfl

theorem v30_at (x0 : (⟨S65536x2, .f32⟩ : BufTy).Contents (Elt Ideal)) (n : Fin 65536) (u : Fin 1) : val_main_v30 (F := Ideal) x0 (ix2 n u) = x0 (ix2 n 1) := by
  unfold val_main_v30; exact LibColumns.slice_col1 _ _ n u
theorem v31_at (x2 : (⟨S1024x2, .f32⟩ : BufTy).Contents (Elt Ideal)) (k : Fin 1024) (u : Fin 1) : val_main_v31 (F := Ideal) x2 (ix2 k u) = x2 (ix2 k 1) := by
  unfold val_main_v31; exact LibColumns.slice_col1 _ _ k u
theorem v32_at (x2 : (⟨S1024x2, .f32⟩ : BufTy).Contents (Elt Ideal)) (k : Fin 1024) : val_main_v32 (F := Ideal) x2 (ix1 k) = x2 (ix2 k 1) := by
  unfold val_main_v32; exact (LibColumns.reshape_col _ _ k).trans (v31_at x2 k 0)
theorem v33_at (x2 : (⟨S1024x2, .f32⟩ : BufTy).Contents (Elt Ideal)) (u : Fin 1) (k : Fin 1024) : val_main_v33 (F := Ideal) x2 (ix2 u k) = x2 (ix2 k 1) := by
  unfold val_main_v33; exact (broadcastInDim_b_1b_apply _ _ u k).trans (v32_at x2 k)
theorem v34_at (x0 : (⟨S65536x2, .f32⟩ : BufTy).Contents (Elt Ideal)) (n : Fin 65536) (k : Fin 1024) : val_main_v34 (F := Ideal) x0 (ix2 n k) = x0 (ix2 n 1) := by
  unfold val_main_v34; exact (broadcastInDim_a1_ab_apply _ _ n k).trans (v30_at x0 n 0)
theorem v35_at (x2 : (⟨S1024x2, .f32⟩ : BufTy).Contents (Elt Ideal)) (n : Fin 65536) (k : Fin 1024) : val_main_v35 (F := Ideal) x2 (ix2 n k) = x2 (ix2 k 1) := by
  unfold val_main_v35; exact (broadcastInDim_1b_ab_apply _ _ n k).trans (v33_at x2 0 k)
theorem v36_at (x0 : (⟨S65536x2, .f32⟩ : BufTy).Contents (Elt Ideal)) (x2 : (⟨S1024x2, .f32⟩ : BufTy).Contents (Elt Ideal)) (n : Fin 65536) (k : Fin 1024) :
    val_main_v36 (F := Ideal) x0 x2 (ix2 n k) = x0 (ix2 n 1) - x2 (ix2 k 1) := by
  rw [val_main_v36_apply, v34_at, v35_at]; rfl

/-! ## The covariance entries repeated along the points -/

theorem v38_at (x3 : (⟨S1024x1, .f32⟩ : BufTy).Contents (Elt Ideal)) (x4 : (⟨S1024x2, .f32⟩ : BufTy).Contents (Elt Ideal)) (n : Fin 65536) (k : Fin 1024) : val_main_v38 (F := Ideal) x3 x4 (ix2 n k) = cov00 x3 x4 k := by
  unfold val_main_v38
  refine (broadcastInDim_1b_ab_apply _ _ n k).trans ?_
  unfold val_main_v37
  exact (broadcastInDim_b_1b_apply _ _ 0 k).trans (v16_at x3 x4 k)
theorem v41_at (k : Fin 1024) : val_main_v41 (F := Ideal) (ix1 k) = two := by
  unfold val_main_v41; exact (broadcastInDim_scalar_apply _ _ _).trans rfl
theorem v44_at (x3 : (⟨S1024x1, .f32⟩ : BufTy).Contents (Elt Ideal)) (x4 : (⟨S1024x2, .f32⟩ : BufTy).Contents (Elt Ideal)) (n : Fin 65536) (k : Fin 1024) :
    val_main_v44 (F := Ideal) x3 x4 (ix2 n k) = two * cov01 x3 x4 k := by
  unfold val_main_v44
  refine (broadcastInDim_1b_ab_apply _ _ n k).trans ?_
  unfold val_main_v43
  refine (broadcastInDim_b_1b_apply _ _ 0 k).trans ?_
  rw [val_main_v42_apply, v41_at, v19_at]; rfl
theorem v49_at (x3 : (⟨S1024x1, .f32⟩ : BufTy).Contents (Elt Ideal)) (x4 : (⟨S1024x2, .f32⟩ : BufTy).Contents (Elt Ideal)) (n : Fin 65536) (k : Fin 1024) : val_main_v49 (F := Ideal) x3 x4 (ix2 n k) = cov11 x3 x4 k := by
  unfold val_main_v49
  refine (broadcastInDim_1b_ab_apply _ _ n k).trans ?_
  unfold val_main_v48
  exact (broadcastInDim_b_1b_apply _ _ 0 k).trans (v22_at x3 x4 k)
theorem v53_at (n : Fin 65536) (k : Fin 1024) : val_main_v53 (F := Ideal) (ix2 n k) = mhalf := by
  unfold val_main_v53; exact (broadcastInDim_scalar_apply _ _ _).trans rfl

/-! ## The weight and the result -/

theorem v55_at (x0 : (⟨S65536x2, .f32⟩ : BufTy).Contents (Elt Ideal)) (x2 : (⟨S1024x2, .f32⟩ : BufTy).Contents (Elt Ideal)) (x3 : (⟨S1024x1, .f32⟩ : BufTy).Contents (Elt Ideal)) (x4 : (⟨S1024x2, .f32⟩ : BufTy).Contents (Elt Ideal)) (n : Fin 65536) (k : Fin 1024) :
    val_main_v55 (F := Ideal) x0 x2 x3 x4 (ix2 n k) = Ideal.exp (expoDirect x0 x2 x3 x4 n k) := by
  rw [val_main_v55_apply, val_main_v54_apply, v53_at, val_main_v52_apply, val_main_v47_apply, val_main_v40_apply,
    val_main_v39_apply, val_main_v46_apply, val_main_v45_apply, val_main_v51_apply, val_main_v50_apply,
    v38_at, v29_at, v44_at, v36_at, v49_at]
  rfl

/-- The reference's result is the splat with the exponent from the differences. -/
theorem result_eq (x0 : (⟨S65536x2, .f32⟩ : BufTy).Contents (Elt Ideal)) (x1 : (⟨S1024x3, .f32⟩ : BufTy).Contents (Elt Ideal)) (x2 : (⟨S1024x2, .f32⟩ : BufTy).Contents (Elt Ideal)) (x3 : (⟨S1024x1, .f32⟩ : BufTy).Contents (Elt Ideal)) (x4 : (⟨S1024x2, .f32⟩ : BufTy).Contents (Elt Ideal)) :
    val_main_v56 (F := Ideal) x0 x1 x2 x3 x4 = splat x0 x1 x2 x3 x4 := by
  funext i
  obtain ⟨n, ch, rfl⟩ : ∃ (n : Fin 65536) (ch : Fin 3), i = (ix2 n ch : S65536x3.Idx) :=
    ⟨i 0, i 1, eq_ix2 (n0 := 65536) (n1 := 3) i⟩
  rw [val_main_v56_apply]
  have el : ∀ k : Fin 1024, lidx_main_v56 (ix2 n ch) k = (ix2 n k : S65536x1024.Idx) := fun k =>
    funext fun a => Fin.ext (by match a with | ⟨0, _⟩ => rfl | ⟨1, _⟩ => rfl)
  have er : ∀ k : Fin 1024, ridx_main_v56 (ix2 n ch) k = (ix2 k ch : S1024x3.Idx) := fun k =>
    funext fun a => Fin.ext (by match a with | ⟨0, _⟩ => rfl | ⟨1, _⟩ => rfl)
  show _ = ∑ k : Fin 1024, Ideal.exp (expoDirect x0 x2 x3 x4 n k) * x1 (ix2 k ch)
  refine Finset.sum_congr rfl fun k _ => ?_
  rw [el, er, v55_at]

end Cert.ReferenceIdeal.RefVal

end
-- ==== Proof.Finite.lean ====
/-
  What the precondition says: every entry of every argument array is a real number.

  The printed predicate compares the absolute value of each entry with +∞ and folds the answers of each array by
  `and`; the five folds are joined by `and`.  If the whole is 1 then each fold is 1, so each comparison is 1, and an
  extended real whose absolute value lies below +∞ is neither infinity.
-/
import proofs.«155513_j89326729822767_2_alg».proof.Pre_finite_inputs
import Idealize.ShloMosaic.Lib.ReduceAll
import Idealize.ShloMosaic.Lib.ValueIdx
import Idealize.ShloMosaic.PureOps.Ideal

namespace Cert.Splat.Fin

open Idealize.ShloMosaic Idealize.ShloMosaic.ValueIdx

/-- An extended real whose absolute value compares below the word of +∞ is a real number. -/
theorem real_of_lt_inf (x : EReal)
    (h : FloatOps.cmpf (F := Ideal) .olt (FloatOps.hostAbsf x) (Ideal.ofBits .f32 0x7F800000#32) = 1#1) :
    ∃ r : ℝ, x = (r : EReal) := by
  induction x using EReal.rec with
  | bot => exfalso; revert h; simp [FloatOps.cmpf, FloatOps.hostAbsf, Ideal.cmp, Ideal.ofBits, Ideal.ieee]
  | coe r => exact ⟨r, rfl⟩
  | top => exfalso; revert h; simp [FloatOps.cmpf, FloatOps.hostAbsf, Ideal.cmp, Ideal.ofBits, Ideal.ieee]

instance : Subsingleton (⟨0, ![]⟩ : Shape).Idx := ⟨fun a b => funext fun d => d.elim0⟩

/-- One array's fold: if the `and` of all comparisons is 1, every entry is real. -/
theorem real_of_all {n0 n1 : ℕ} (x : FVec Ideal ⟨2, ![n0, n1]⟩ .f32)
    (hb : (⟨0, ![]⟩ : Shape).BroadcastsInDim ⟨2, ![n0, n1]⟩ (![] : Fin 0 → Fin 2))
    (hr : (⟨2, ![n0, n1]⟩ : Shape).ReducesTo [0, 1] ⟨0, ![]⟩) (hu : 0 < (⟨0, ![]⟩ : Shape).numel)
    (e : Host.reduce IntOp.andi (cmpf .olt (Host.absf x) (broadcastInDim ⟨2, ![n0, n1]⟩ ![] hb (constant (F := Ideal) ⟨0, ![]⟩ .f32 0x7F800000#32)))
      (constantI ⟨0, ![]⟩ 1 1#1) hr hu ix0 = 1#1) (i : (⟨2, ![n0, n1]⟩ : Shape).Idx) : ∃ r : ℝ, x i = (r : EReal) :=
  real_of_lt_inf (x i) (Host.reduce_andi_all _ _ hr hu ix0 e i)

variable [Cert.Pre_finite_inputs.Facts]

/-- The precondition gives every entry of the five argument arrays as a real number. -/
theorem reals_of_pre (x0 : FVec Ideal Cert.Pre_finite_inputs.S65536x2 .f32) (x1 : FVec Ideal Cert.Pre_finite_inputs.S1024x3 .f32)
    (x2 : FVec Ideal Cert.Pre_finite_inputs.S1024x2 .f32) (x3 : FVec Ideal Cert.Pre_finite_inputs.S1024x1 .f32)
    (x4 : FVec Ideal Cert.Pre_finite_inputs.S1024x2 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨real_of_all x0 _ _ _ h0', real_of_all x1 _ _ _ h1, real_of_all x2 _ _ _ h2, real_of_all x3 _ _ _ h3,
    real_of_all x4 _ _ _ h4⟩

end Cert.Splat.Fin
-- ==== Proof.lean ====
/-
  A Gaussian splat: for 65536 points and 1024 primitives, the result at `(n, ch)` is the sum over the primitives of
  `exp (−½ · (xₙ − μₖ)ᵀ Σₖ (xₙ − μₖ)) · colour(k, ch)`, where `Σₖ` is the covariance built from primitive `k`'s rotation
  and scales.

  The reference forms the differences `xₙ − μₖ` and the quadratic form directly.  The kernel expands the quadratic
  form as the dot product of the six monomials `(x₀², x₀x₁, x₁², x₀, x₁, 1)` of a point with six coefficients of a
  primitive, which the host computes once, and evaluates it as a 1024×6 by 6×1024 matrix product per block of 1024
  points; the sum over the primitives is a second matrix product in both programs.  On the extended reals the two
  agree where the expansion is valid, that is where points, means, rotations and scales are finite, which the
  precondition gives; the colours may be anything.

  The frames: each program runs to the end, faults nowhere, and leaves its arguments as launched (the two kernels'
  by the pipeline's frame run over the body's load–compute–store triple, the reference's by its run).  The
  idealization rewrote nothing, so `preserves` has nothing to say.  The equivalence: the kernel's result array is the
  splat with the dot-product exponent, the reference's the splat with the direct exponent, of arguments that agree.
-/
import proofs.«155513_j89326729822767_2_alg».proof.Defs
import proofs.«155513_j89326729822767_2_alg».proof.Proof.Gen.Kernel
import proofs.«155513_j89326729822767_2_alg».proof.Proof.Gen.KernelIdeal
import proofs.«155513_j89326729822767_2_alg».proof.Proof.Gen.ReferenceIdeal
import proofs.«155513_j89326729822767_2_alg».proof.Proof.Gen.Pre_finite_inputs
import proofs.«155513_j89326729822767_2_alg».proof.Proof.Gen.ReferenceIdeal.Run
import proofs.«155513_j89326729822767_2_alg».proof.Proof.Gen.ReferenceIdeal.Read
import proofs.«155513_j89326729822767_2_alg».proof.Proof.FrameK
import proofs.«155513_j89326729822767_2_alg».proof.Proof.FrameKI
import proofs.«155513_j89326729822767_2_alg».proof.Proof.KValue
import proofs.«155513_j89326729822767_2_alg».proof.Proof.RefValue
import proofs.«155513_j89326729822767_2_alg».proof.Proof.Finite
import proofs.«155513_j89326729822767_2_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the splat of the (agreeing) arguments: the kernel's
    dot-product exponent is the reference's direct exponent because points, means, rotations and scales are finite. -/
theorem algebraic : Cert.algebraic_KernelIdeal_ReferenceIdeal := by
  intro m ρ m' ρ' hpre hagree
  refine ⟨fun c => Cert.Splat.splat (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Val.run m ρ)
    obtain ⟨h0, -, h2, h3, h4⟩ := Cert.Splat.Fin.reals_of_pre _ _ _ _ _ (hpre c)
    exact Cert.Splat.splatDot_eq_splat _ h0 h2 h3 h4
  · refine (θ_run Cert.ReferenceIdeal.defs _ _).mono (fun _ h c => ⟨?_, (h c).2⟩)
      (Cert.ReferenceIdeal.Value.run (F := Ideal) m' ρ')
    rw [(h c).1, Cert.ReferenceIdeal.Read.val_main_v56_eq, Cert.ReferenceIdeal.RefVal.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
